-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x40 : Shape := ⟨2, ![100000, 40]⟩
abbrev S2x1600000 : Shape := ⟨2, ![2, 1600000]⟩
abbrev S1600000 : Shape := ⟨1, ![1600000]⟩
abbrev S40x64 : Shape := ⟨2, ![40, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x40 : S_.BroadcastsInDim S100000x40 (![] : Fin 0 → Fin S100000x40.rank)
  reducesTo_S100000x40_S_d0_1 : S100000x40.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S40x64 : S_.BroadcastsInDim S40x64 (![] : Fin 0 → Fin S40x64.rank)
  reducesTo_S40x64_S_d0_1 : S40x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S64x40 .f32) (main_arg6 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x40 .f32 := Host.absf main_arg5
  let main_cst_6 : FVec F S_ .f32 := constant S_ .f32 0x7F800000#32
  let main_v20 : FVec F S64x40 .f32 := broadcastInDim S64x40 ![] bcast_S_S64x40 main_cst_6
  let main_v21 : IVec S64x40 1 := cmpf .olt main_v19 main_v20
  let main_c_7 : IVec S_ 1 := constantI S_ 1 1#1
  let main_v22 : IVec S_ 1 := (fun x v => Host.reduce IntOp.andi x v reducesTo_S64x40_S_d0_1 h_S_) main_v21 main_c_7
  let main_v23 : IVec S_ 1 := andi main_v18 main_v22
  let main_v24 : FVec F S40 .f32 := Host.absf main_arg6
  let main_cst_8 : FVec F S_ .f32 := constant S_ .f32 0x7F800000#32
  let main_v25 : FVec F S40 .f32 := broadcastInDim S40 ![] bcast_S_S40 main_cst_8
  let main_v26 : IVec S40 1 := cmpf .olt main_v24 main_v25
  let main_c_9 : IVec S_ 1 := constantI S_ 1 1#1
  let main_v27 : IVec S_ 1 := (fun x v => Host.reduce IntOp.andi x v reducesTo_S40_S_d0 h_S_) main_v26 main_c_9
  let main_v28 : IVec S_ 1 := andi main_v23 main_v27
  main_v28

def fn {F : FTy → Type} [FloatOps F] (main_arg0 : FVec F S100000x40 .f32) (main_arg1 : IVec S2x1600000 32) (main_arg2 : FVec F S1600000 .f32) (main_arg3 : FVec F S40x64 .f32) (main_arg4 : FVec F S64 .f32) (main_arg5 : FVec F S64x40 .f32) (main_arg6 : FVec F S40 .f32) : IVec S_ 1 :=
  let main_v0 : FVec F S100000x40 .f32 := Host.absf main_arg0
  let main_cst : FVec F S_ .f32 := constant S_ .f32 0x7F800000#32
  let main_v1 : FVec F S100000x40 .f32 := broadcastInDim S100000x40 ![] bcast_S_S100000x40 main_cst
  let main_v2 : IVec S100000x40 1 := cmpf .olt main_v0 main_v1
  let main_c : IVec S_ 1 := constantI S_ 1 1#1
  let main_v3 : IVec S_ 1 := (fun x v => Host.reduce IntOp.andi x v reducesTo_S100000x40_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S40x64 .f32 := Host.absf main_arg3
  let main_cst_2 : FVec F S_ .f32 := constant S_ .f32 0x7F800000#32
  let main_v10 : FVec F S40x64 .f32 := broadcastInDim S40x64 ![] bcast_S_S40x64 main_cst_2
  let main_v11 : IVec S40x64 1 := cmpf .olt main_v9 main_v10
  let main_c_3 : IVec S_ 1 := constantI S_ 1 1#1
  let main_v12 : IVec S_ 1 := (fun x v => Host.reduce IntOp.andi x v reducesTo_S40x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x40 : Shape := ⟨2, ![100000, 40]⟩
abbrev S2x1600000 : Shape := ⟨2, ![2, 1600000]⟩
abbrev S1600000 : Shape := ⟨1, ![1600000]⟩
abbrev S40x64 : Shape := ⟨2, ![40, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S3936 : Shape := ⟨1, ![3936]⟩
abbrev S1703936 : Shape := ⟨1, ![1703936]⟩
abbrev S1703936x1 : Shape := ⟨2, ![1703936, 1]⟩
abbrev S1x40 : Shape := ⟨2, ![1, 40]⟩
abbrev S100000x64 : Shape := ⟨2, ![100000, 64]⟩
abbrev S10000x40 : Shape := ⟨2, ![10000, 40]⟩
abbrev S10000x64 : Shape := ⟨2, ![10000, 64]⟩
abbrev S1703936x64 : Shape := ⟨2, ![1703936, 64]⟩
abbrev S8192x64 : Shape := ⟨2, ![8192, 64]⟩
abbrev S8192x1 : Shape := ⟨2, ![8192, 1]⟩
abbrev S1x64 : Shape := ⟨2, ![1, 64]⟩
abbrev S1703936x40 : Shape := ⟨2, ![1703936, 40]⟩
abbrev S8192x40 : Shape := ⟨2, ![8192, 40]⟩

abbrev nBuf : Space → Nat
  | .hbm => 95
  | .vmem => 24
  | .smem => 0
  | _ => 0

abbrev bufTy : (tb : Table) → Fin (tcTables nBuf tb) → BufTy
  | .hbm, ⟨0, _⟩ => ⟨S100000x40, .f32⟩
  | .hbm, ⟨1, _⟩ => ⟨S2x1600000, .i32⟩
  | .hbm, ⟨2, _⟩ => ⟨S1600000, .f32⟩
  | .hbm, ⟨3, _⟩ => ⟨S40x64, .f32⟩
  | .hbm, ⟨4, _⟩ => ⟨S64, .f32⟩
  | .hbm, ⟨5, _⟩ => ⟨S64x40, .f32⟩
  | .hbm, ⟨6, _⟩ => ⟨S40, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000, .i32⟩
  | .hbm, ⟨12, _⟩ => ⟨S1700000, .i32⟩
  | .hbm, ⟨13, _⟩ => ⟨S1700000, .i32⟩
  | .hbm, ⟨14, _⟩ => ⟨S_, .f32⟩
  | .hbm, ⟨15, _⟩ => ⟨S100000, .f32⟩
  | .hbm, ⟨16, _⟩ => ⟨S1700000, .f32⟩
  | .hbm, ⟨17, _⟩ => ⟨S_, .i32⟩
  | .hbm, ⟨18, _⟩ => ⟨S3936, .i32⟩
  | .hbm, ⟨19, _⟩ => ⟨S1703936, .i32⟩
  | .hbm, ⟨20, _⟩ => ⟨S_, .i32⟩
  | .hbm, ⟨21, _⟩ => ⟨S3936, .i32⟩
  | .hbm, ⟨22, _⟩ => ⟨S1703936, .i32⟩
  | .hbm, ⟨23, _⟩ => ⟨S_, .f32⟩
  | .hbm, ⟨24, _⟩ => ⟨S3936, .f32⟩
  | .hbm, ⟨25, _⟩ => ⟨S1703936, .f32⟩
  | .hbm, ⟨26, _⟩ => ⟨S_, .f32⟩
  | .hbm, ⟨27, _⟩ => ⟨S100000, .f32⟩
  | .hbm, ⟨28, _⟩ => ⟨S1703936x1, .i32⟩
  | .hbm, ⟨29, _⟩ => ⟨S100000, .f32⟩
  | .hbm, ⟨30, _⟩ => ⟨S_, .f32⟩
  | .hbm, ⟨31, _⟩ => ⟨S100000, .f32⟩
  | .hbm, ⟨32, _⟩ => ⟨S100000, .i1⟩
  | .hbm, ⟨33, _⟩ => ⟨S100000, .f32⟩
  | .hbm, ⟨34, _⟩ => ⟨S_, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S_, .i32⟩
  | .hbm, ⟨39, _⟩ => ⟨S1703936, .i32⟩
  | .hbm, ⟨40, _⟩ => ⟨S1703936, .i1⟩
  | .hbm, ⟨41, _⟩ => ⟨S_, .i32⟩
  | .hbm, ⟨42, _⟩ => ⟨S1703936, .i32⟩
  | .hbm, ⟨43, _⟩ => ⟨S1703936, .i32⟩
  | .hbm, ⟨44, _⟩ => ⟨S1703936, .i32⟩
  | .hbm, ⟨45, _⟩ => ⟨S1703936x1, .i32⟩
  | .hbm, ⟨46, _⟩ => ⟨S1703936, .f32⟩
  | .hbm, ⟨47, _⟩ => ⟨S1703936, .f32⟩
  | .hbm, ⟨48, _⟩ => ⟨S_, .i32⟩
  | .hbm, ⟨49, _⟩ => ⟨S1703936, .i32⟩
  | .hbm, ⟨50, _⟩ => ⟨S1703936, .i1⟩
  | .hbm, ⟨51, _⟩ => ⟨S_, .i32⟩
  | .hbm, ⟨52, _⟩ => ⟨S1703936, .i32⟩
  | .hbm, ⟨53, _⟩ => ⟨S1703936, .i32⟩
  | .hbm, ⟨54, _⟩ => ⟨S1703936, .i32⟩
  | .hbm, ⟨55, _⟩ => ⟨S1703936x1, .i32⟩
  | .hbm, ⟨56, _⟩ => ⟨S1703936, .f32⟩
  | .hbm, ⟨57, _⟩ => ⟨S1703936, .f32⟩
  | .hbm, ⟨58, _⟩ => ⟨S1703936x1, .f32⟩
  | .hbm, ⟨59, _⟩ => ⟨S_, .f32⟩
  | .hbm, ⟨60, _⟩ => ⟨S1x40, .f32⟩
  | .hbm, ⟨61, _⟩ => ⟨S100000x64, .f32⟩
  | .hbm, ⟨62, _⟩ => ⟨S_, .i32⟩
  | .hbm, ⟨63, _⟩ => ⟨S1703936, .i32⟩
  | .hbm, ⟨64, _⟩ => ⟨S1703936, .i1⟩
  | .hbm, ⟨65, _⟩ => ⟨S_, .i32⟩
  | .hbm, ⟨66, _⟩ => ⟨S1703936, .i32⟩
  | .hbm, ⟨67, _⟩ => ⟨S1703936, .i32⟩
  | .hbm, ⟨68, _⟩ => ⟨S1703936, .i32⟩
  | .hbm, ⟨69, _⟩ => ⟨S1703936x1, .i32⟩
  | .hbm, ⟨70, _⟩ => ⟨S1703936x64, .f32⟩
  | .hbm, ⟨71, _⟩ => ⟨S1703936x64, .f32⟩
  | .hbm, ⟨72, _⟩ => ⟨S_, .f32⟩
  | .hbm, ⟨73, _⟩ => ⟨S100000x64, .f32⟩
  | .hbm, ⟨74, _⟩ => ⟨S1703936x1, .i32⟩
  | .hbm, ⟨75, _⟩ => ⟨S100000x64, .f32⟩
  | .hbm, ⟨76, _⟩ => ⟨S1x64, .f32⟩
  | .hbm, ⟨77, _⟩ => ⟨S100000x40, .f32⟩
  | .hbm, ⟨78, _⟩ => ⟨S_, .i32⟩
  | .hbm, ⟨79, _⟩ => ⟨S1703936, .i32⟩
  | .hbm, ⟨80, _⟩ => ⟨S1703936, .i1⟩
  | .hbm, ⟨81, _⟩ => ⟨S_, .i32⟩
  | .hbm, ⟨82, _⟩ => ⟨S1703936, .i32⟩
  | .hbm, ⟨83, _⟩ => ⟨S1703936, .i32⟩
  | .hbm, ⟨84, _⟩ => ⟨S1703936, .i32⟩
  | .hbm, ⟨85, _⟩ => ⟨S1703936x1, .i32⟩
  | .hbm, ⟨86, _⟩ => ⟨S1703936x40, .f32⟩
  | .hbm, ⟨87, _⟩ => ⟨S1703936x40, .f32⟩
  | .hbm, ⟨88, _⟩ => ⟨S_, .f32⟩
  | .hbm, ⟨89, _⟩ => ⟨S100000x40, .f32⟩
  | .hbm, ⟨90, _⟩ => ⟨S1703936x1, .i32⟩
  | .hbm, ⟨91, _⟩ => ⟨S100000x40, .f32⟩
  | .hbm, ⟨92, _⟩ => ⟨S1x40, .f32⟩
  | .hbm, ⟨93, _⟩ => ⟨S100000x40, .f32⟩
  | .hbm, ⟨94, _⟩ => ⟨S100000x40, .f32⟩
  | .local _ .vmem, ⟨0, _⟩ => ⟨S10000x40, .f32⟩
  | .local _ .vmem, ⟨1, _⟩ => ⟨S10000x40, .f32⟩
  | .local _ .vmem, ⟨2, _⟩ => ⟨S40x64, .f32⟩
  | .local _ .vmem, ⟨3, _⟩ => ⟨S1x40, .f32⟩
  | .local _ .vmem, ⟨4, _⟩ => ⟨S10000x64, .f32⟩
  | .local _ .vmem, ⟨5, _⟩ => ⟨S10000x64, .f32⟩
  | .local _ .vmem, ⟨6, _⟩ => ⟨S8192x64, .f32⟩
  | .local _ .vmem, ⟨7, _⟩ => ⟨S8192x64, .f32⟩
  | .local _ .vmem, ⟨8, _⟩ => ⟨S8192x1, .f32⟩
  | .local _ .vmem, ⟨9, _⟩ => ⟨S8192x1, .f32⟩
  | .local _ .vmem, ⟨10, _⟩ => ⟨S8192x64, .f32⟩
  | .local _ .vmem, ⟨11, _⟩ => ⟨S8192x64, .f32⟩
  | .local _ .vmem, ⟨12, _⟩ => ⟨S10000x64, .f32⟩
  | .local _ .vmem, ⟨13, _⟩ => ⟨S10000x64, .f32⟩
  | .local _ .vmem, ⟨14, _⟩ => ⟨S64x40, .f32⟩
  | .local _ .vmem, ⟨15, _⟩ => ⟨S1x64, .f32⟩
  | .local _ .vmem, ⟨16, _⟩ => ⟨S10000x40, .f32⟩
  | .local _ .vmem, ⟨17, _⟩ => ⟨S10000x40, .f32⟩
  | .local _ .vmem, ⟨18, _⟩ => ⟨S8192x40, .f32⟩
  | .local _ .vmem, ⟨19, _⟩ => ⟨S8192x40, .f32⟩
  | .local _ .vmem, ⟨20, _⟩ => ⟨S8192x1, .f32⟩
  | .local _ .vmem, ⟨21, _⟩ => ⟨S8192x1, .f32⟩
  | .local _ .vmem, ⟨22, _⟩ => ⟨S8192x40, .f32⟩
  | .local _ .vmem, ⟨23, _⟩ => ⟨S8192x40, .f32⟩
  | _, _ => ⟨S100000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_call0_v1 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_7 : Ref sig .tc := ⟨.hbm, 48, rfl⟩
abbrev main_v30 : Ref sig .tc := ⟨.hbm, 49, rfl⟩
abbrev main_v31 : Ref sig .tc := ⟨.hbm, 50, rfl⟩
abbrev main_c_8 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_9 : Ref sig .tc := ⟨.hbm, 59, rfl⟩
abbrev main_v39 : Ref sig .tc := ⟨.hbm, 60, rfl⟩
abbrev main_v40 : Ref sig .tc := ⟨.hbm, 61, rfl⟩
abbrev main_c_10 : Ref sig .tc := ⟨.hbm, 62, rfl⟩
abbrev main_v41 : Ref sig .tc := ⟨.hbm, 63, rfl⟩
abbrev main_v42 : Ref sig .tc := ⟨.hbm, 64, rfl⟩
abbrev main_c_11 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_12 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_c_13 : Ref sig .tc := ⟨.hbm, 78, rfl⟩
abbrev main_v54 : Ref sig .tc := ⟨.hbm, 79, rfl⟩
abbrev main_v55 : Ref sig .tc := ⟨.hbm, 80, rfl⟩
abbrev main_c_14 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![208], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S_S3936 : S_.BroadcastsInDim S3936 (![] : Fin 0 → Fin S3936.rank)
  concatenates_S1700000_S3936_S1703936_d0 : Shape.Concatenates [S1700000, S3936] S1703936 0
  bcast_S1703936_S1703936x1_0 : S1703936.BroadcastsInDim S1703936x1 (![0] : Fin 1 → Fin S1703936x1.rank)
  bcast_S_S1703936 : S_.BroadcastsInDim S1703936 (![] : Fin 0 → Fin S1703936.rank)
  shapeCasts_S1703936_S1703936x1 : S1703936.ShapeCasts S1703936x1
  bcast_S_S1x40 : S_.BroadcastsInDim S1x40 (![] : Fin 0 → Fin S1x40.rank)
  inb_S10000x40_S10000x40_0_0 : ∀ a, (![0, 0] : Fin 2 → Nat) a + S10000x40.size a ≤ S10000x40.size a
  h_S10000x40 : 0 < S10000x40.numel
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S10000x64_S10000x64_0_0 : ∀ a, (![0, 0] : Fin 2 → Nat) a + S10000x64.size a ≤ S10000x64.size a
  h_S10000x64 : 0 < S10000x64.numel
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x64 : S8192x1.Broadcasts S8192x64
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x40_S64x40_0_0 : ∀ a, (![0, 0] : Fin 2 → Nat) a + S64x40.size a ≤ S64x40.size a
  h_S64x40 : 0 < S64x40.numel
  inb_S8192x40_S8192x40_0_0 : ∀ a, (![0, 0] : Fin 2 → Nat) a + S8192x40.size a ≤ S8192x40.size a
  h_S8192x40 : 0 < S8192x40.numel
  shapeCasts_S8192x40_S8192x40 : S8192x40.ShapeCasts S8192x40
  broadcasts_S8192x1_S8192x40 : S8192x1.Broadcasts S8192x40
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1703936x1_S1703936_n_0_0_1_wf : ScatterDims.WF S100000 S1703936x1 S1703936 [] [0] [0] 1
  gather_S100000_S1703936x1_S1703936_n_0_n_n_0_1_1_wf : GatherDims.WF S100000 S1703936x1 S1703936 [] [0] [] [0] [] 1 ![1]
  dot_S10000x40_S40x64_S10000x64_1_0_0_1_n_n_wf : DotDims.WF S10000x40 S40x64 S10000x64 [1] [0] [0] [1] [] []
  gather_S100000x64_S1703936x1_S1703936x64_1_0_n_n_0_1_164_wf : GatherDims.WF S100000x64 S1703936x1 S1703936x64 [1] [0] [] [0] [] 1 ![1, 64]
  scatter_S100000x64_S1703936x1_S1703936x64_1_0_0_1_wf : ScatterDims.WF S100000x64 S1703936x1 S1703936x64 [1] [0] [0] 1
  dot_S10000x64_S64x40_S10000x40_1_0_0_1_n_n_wf : DotDims.WF S10000x64 S64x40 S10000x40 [1] [0] [0] [1] [] []
  gather_S100000x40_S1703936x1_S1703936x40_1_0_n_n_0_1_140_wf : GatherDims.WF S100000x40 S1703936x1 S1703936x40 [1] [0] [] [0] [] 1 ![1, 40]
  scatter_S100000x40_S1703936x1_S1703936x40_1_0_0_1_wf : ScatterDims.WF S100000x40 S1703936x1 S1703936x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x40.size a ≤ S100000x40.size a
  hwx0_0 : ∀ i : grid0.Coords, EltTy.bits .f32 = 32 ∨ (Rect.block (s := S100000x40) S10000x40.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x64.size a ≤ S40x64.size a
  hwx0_1 : ∀ i : grid0.Coords, EltTy.bits .f32 = 32 ∨ (Rect.block (s := S40x64) S40x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x40.size a ≤ S1x40.size a
  hwx0_2 : ∀ i : grid0.Coords, EltTy.bits .f32 = 32 ∨ (Rect.block (s := S1x40) S1x40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x64.size a ≤ S1703936x64.size a
  hwx1_0 : ∀ i : grid1.Coords, EltTy.bits .f32 = 32 ∨ (Rect.block (s := S1703936x64) S8192x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S1703936x64.size a
  hwx1_2 : ∀ i : grid1.Coords, EltTy.bits .f32 = 32 ∨ (Rect.block (s := S1703936x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x40.size a ≤ S64x40.size a
  hwx2_1 : ∀ i : grid2.Coords, EltTy.bits .f32 = 32 ∨ (Rect.block (s := S64x40) S64x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x40.size a ≤ S100000x40.size a
  hwx2_3 : ∀ i : grid2.Coords, EltTy.bits .f32 = 32 ∨ (Rect.block (s := S100000x40) S10000x40.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x40.size a ≤ S1703936x40.size a
  hwx3_0 : ∀ i : grid3.Coords, EltTy.bits .f32 = 32 ∨ (Rect.block (s := S1703936x40) S8192x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S1703936x1.size a
  hwx3_1 : ∀ i : grid3.Coords, EltTy.bits .f32 = 32 ∨ (Rect.block (s := S1703936x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x40.size a ≤ S1703936x40.size a
  hwx3_2 : ∀ i : grid3.Coords, EltTy.bits .f32 = 32 ∨ (Rect.block (s := S1703936x40) S8192x40.size (cc3_transform_2 i) (hinb3_2 i)).WholeWords (EltTy.packing .f32)

variable [Facts₀]

def scatter_S100000_S1703936x1_S1703936_n_0_0_1 : ScatterDims S100000 S1703936x1 S1703936 where
  updateWindowDims := []
  insertedWindowDims := [0]
  scatterDimsToOperandDims := [0]
  indexVectorDim := 1
  wf := scatter_S100000_S1703936x1_S1703936_n_0_0_1_wf
def gather_S100000_S1703936x1_S1703936_n_0_n_n_0_1_1 : GatherDims S100000 S1703936x1 S1703936 where
  offsetDims := []
  collapsedSliceDims := [0]
  operandBatchingDims := []
  startIndicesBatchingDims := []
  startIndexMap := [0]
  indexVectorDim := 1
  sliceSizes := ![1]
  wf := gather_S100000_S1703936x1_S1703936_n_0_n_n_0_1_1_wf
def dot_S10000x40_S40x64_S10000x64_1_0_0_1_n_n : DotDims S10000x40 S40x64 S10000x64 where
  lhsContracting := [1]
  rhsContracting := [0]
  lhsNonContracting := [0]
  rhsNonContracting := [1]
  lhsBatch := []
  rhsBatch := []
  wf := dot_S10000x40_S40x64_S10000x64_1_0_0_1_n_n_wf
def gather_S100000x64_S1703936x1_S1703936x64_1_0_n_n_0_1_164 : GatherDims S100000x64 S1703936x1 S1703936x64 where
  offsetDims := [1]
  collapsedSliceDims := [0]
  operandBatchingDims := []
  startIndicesBatchingDims := []
  startIndexMap := [0]
  indexVectorDim := 1
  sliceSizes := ![1, 64]
  wf := gather_S100000x64_S1703936x1_S1703936x64_1_0_n_n_0_1_164_wf
def scatter_S100000x64_S1703936x1_S1703936x64_1_0_0_1 : ScatterDims S100000x64 S1703936x1 S1703936x64 where
  updateWindowDims := [1]
  insertedWindowDims := [0]
  scatterDimsToOperandDims := [0]
  indexVectorDim := 1
  wf := scatter_S100000x64_S1703936x1_S1703936x64_1_0_0_1_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf
def gather_S100000x40_S1703936x1_S1703936x40_1_0_n_n_0_1_140 : GatherDims S100000x40 S1703936x1 S1703936x40 where
  offsetDims := [1]
  collapsedSliceDims := [0]
  operandBatchingDims := []
  startIndicesBatchingDims := []
  startIndexMap := [0]
  indexVectorDim := 1
  sliceSizes := ![1, 40]
  wf := gather_S100000x40_S1703936x1_S1703936x40_1_0_n_n_0_1_140_wf
def scatter_S100000x40_S1703936x1_S1703936x40_1_0_0_1 : ScatterDims S100000x40 S1703936x1 S1703936x40 where
  updateWindowDims := [1]
  insertedWindowDims := [0]
  scatterDimsToOperandDims := [0]
  indexVectorDim := 1
  wf := scatter_S100000x40_S1703936x1_S1703936x40_1_0_0_1_wf

abbrev win0_0 : Pipeline.Window sig grid0 :=
  Pipeline.Window.ofSpec (Memref.whole main_arg0) S10000x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S40x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v40) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v47) S8192x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v48) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v51) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S10000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v60) S8192x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v38) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S8192x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x40 : Shape := ⟨2, ![100000, 40]⟩
abbrev S2x1600000 : Shape := ⟨2, ![2, 1600000]⟩
abbrev S1600000 : Shape := ⟨1, ![1600000]⟩
abbrev S40x64 : Shape := ⟨2, ![40, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x40 : Shape := ⟨2, ![1700000, 40]⟩
abbrev S1x40 : Shape := ⟨2, ![1, 40]⟩

abbrev nBuf : Space → Nat
  | .hbm => 134
  | .vmem => 0
  | .smem => 0
  | _ => 0

abbrev hbmTy0_0 (i : Nat) : BufTy := match i % 128 with
  | 0 => ⟨S100000x40, .f32⟩
  | 1 => ⟨S2x1600000, .i32⟩
  | 2 => ⟨S1600000, .f32⟩
  | 3 => ⟨S40x64, .f32⟩
  | 4 => ⟨S64, .f32⟩
  | 5 => ⟨S64x40, .f32⟩
  | 6 => ⟨S40, .f32⟩
  | 7 => ⟨S1x1600000, .i32⟩
  | 8 => ⟨S1600000, .i32⟩
  | 9 => ⟨S1x1600000, .i32⟩
  | 10 => ⟨S1600000, .i32⟩
  | 11 => ⟨S100000, .i32⟩
  | 12 => ⟨S1700000, .i32⟩
  | 13 => ⟨S1700000, .i32⟩
  | 14 => ⟨S_, .f32⟩
  | 15 => ⟨S100000, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S1700000, .f32⟩
  | 39 => ⟨S_, .i32⟩
  | 40 => ⟨S1700000, .i32⟩
  | 41 => ⟨S1700000, .i1⟩
  | 42 => ⟨S_, .i32⟩
  | 43 => ⟨S1700000, .i32⟩
  | 44 => ⟨S1700000, .i32⟩
  | 45 => ⟨S1700000, .i32⟩
  | 46 => ⟨S1700000x1, .i32⟩
  | 47 => ⟨S1700000, .f32⟩
  | 48 => ⟨S1700000, .f32⟩
  | 49 => ⟨S100000x64, .f32⟩
  | 50 => ⟨S1700000x1, .f32⟩
  | 51 => ⟨S_, .i32⟩
  | 52 => ⟨S1700000, .i32⟩
  | 53 => ⟨S1700000, .i1⟩
  | 54 => ⟨S_, .i32⟩
  | 55 => ⟨S1700000, .i32⟩
  | 56 => ⟨S1700000, .i32⟩
  | 57 => ⟨S1700000, .i32⟩
  | 58 => ⟨S1700000x1, .i32⟩
  | 59 => ⟨S1700000x64, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x1600000, .i32⟩
  | 73 => ⟨S1600000, .i32⟩
  | 74 => ⟨S1x1600000, .i32⟩
  | 75 => ⟨S1600000, .i32⟩
  | 76 => ⟨S100000, .i32⟩
  | 77 => ⟨S1700000, .i32⟩
  | 78 => ⟨S1700000, .i32⟩
  | 79 => ⟨S_, .f32⟩
  | 80 => ⟨S100000, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .i1⟩
  | 89 => ⟨S100000, .f32⟩
  | 90 => ⟨S_, .f32⟩
  | 91 => ⟨S_, .f32⟩
  | 92 => ⟨S100000, .f32⟩
  | 93 => ⟨S100000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S1700000, .f32⟩
  | 114 => ⟨S100000x40, .f32⟩
  | 115 => ⟨S1700000x1, .f32⟩
  | 116 => ⟨S_, .i32⟩
  | 117 => ⟨S1700000, .i32⟩
  | 118 => ⟨S1700000, .i1⟩
  | 119 => ⟨S_, .i32⟩
  | 120 => ⟨S1700000, .i32⟩
  | 121 => ⟨S1700000, .i32⟩
  | 122 => ⟨S1700000, .i32⟩
  | 123 => ⟨S1700000x1, .i32⟩
  | 124 => ⟨S1700000x40, .f32⟩
  | 125 => ⟨S1700000x40, .f32⟩
  | 126 => ⟨S1700000x40, .f32⟩
  | 127 => ⟨S_, .f32⟩
  | _ => ⟨S100000x40, .f32⟩

abbrev hbmTy0_1 (i : Nat) : BufTy := match i % 128 with
  | 0 => ⟨S100000x40, .f32⟩
  | 1 => ⟨S1700000x1, .i32⟩
  | 2 => ⟨S100000x40, .f32⟩
  | 3 => ⟨S1x40, .f32⟩
  | 4 => ⟨S100000x40, .f32⟩
  | 5 => ⟨S100000x40, .f32⟩
  | _ => ⟨S100000x40, .f32⟩

abbrev hbmTy (i : Nat) : BufTy := match i / 128 with
  | 0 => hbmTy0_0 i
  | 1 => hbmTy0_1 i
  | _ => ⟨S100000x40, .f32⟩

abbrev bufTy : (tb : Table) → Fin (tcTables nBuf tb) → BufTy
  | .hbm, ⟨i, _⟩ => hbmTy i
  | _, _ => ⟨S100000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_9 : Ref sig .tc := ⟨.hbm, 79, rfl⟩
abbrev main_v57 : Ref sig .tc := ⟨.hbm, 80, rfl⟩
abbrev main_v58 : Ref sig .tc := ⟨.hbm, 81, rfl⟩
abbrev main_cst_10 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_12 : Ref sig .tc := ⟨.hbm, 90, rfl⟩
abbrev main_call2_v0 : Ref sig .tc := ⟨.hbm, 91, rfl⟩
abbrev main_call2_v1 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_c_15 : Ref sig .tc := ⟨.hbm, 104, rfl⟩
abbrev main_v74 : Ref sig .tc := ⟨.hbm, 105, rfl⟩
abbrev main_v75 : Ref sig .tc := ⟨.hbm, 106, rfl⟩
abbrev main_c_16 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_c_17 : Ref sig .tc := ⟨.hbm, 116, rfl⟩
abbrev main_v84 : Ref sig .tc := ⟨.hbm, 117, rfl⟩
abbrev main_v85 : Ref sig .tc := ⟨.hbm, 118, rfl⟩
abbrev main_c_18 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x40_S40x64_S100000x64_1_0_0_1_n_n_wf : DotDims.WF S100000x40 S40x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x40_S100000x40_1_0_0_1_n_n_wf : DotDims.WF S100000x64 S64x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x40_S40x64_S100000x64_1_0_0_1_n_n : DotDims S100000x40 S40x64 S100000x64 where
  lhsContracting := [1]
  rhsContracting := [0]
  lhsNonContracting := [0]
  rhsNonContracting := [1]
  lhsBatch := []
  rhsBatch := []
  wf := dot_S100000x40_S40x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.KernelRun.lean ====
/-
  The idealized kernel program's run, with its RESULT named.

  The program is eleven segments: stretches of host operations alternating with four kernel launches. The buffer
  contents at each boundary are a fold from the launch memory: a host stretch applies its operations' pure functions, a
  launch replaces its windows' arrays by what its write-backs leave and keeps every other buffer. Every weakly fair
  execution from a memory with zero counters terminates without fault in a state where every unscoped buffer holds the
  last boundary's contents; read at the result buffer this names the program's result, and read at the seven
  arguments it says they end as launched.
-/
import proofs.«141327_j15882789060739_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates, nothing faulting, with the result buffer at the last
    boundary's contents (the fold of all eleven segments from the launch memory) and the arguments as launched. -/
theorem run_result : θ_run defs (onTc (τ := τ) (main (F := F))) ⟨m, fun _ => 0, ρ⟩ (fun r => ∀ c : Dev nD,
      r.2.mem ((c.tc : Thread nD τ).loc main_v67) = W11 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v67 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)

end Cert.KernelIdeal.RunValue

end
-- ==== Proof.KernelStages.lean ====
/-
  The idealized kernel program's value, stage by stage, as functions of its seven argument arrays.

  The graph has N = 100000 nodes. The edge list is the 1600000 given edges, then one self loop per node (weight 1),
  then 3936 padding edges (source word 0, target word 0, weight 0) that make the edge count 1703936 = 208 * 8192.
  With pick(w) the node a source word w names (a negative word is raised by N, the result clamped into [0, N-1]) and
  "lands on n" meaning the target word, read signed, is n:

    deg[n]     = 0 + sum of ew[e] over the edges e landing on n
    dinv[n]    = 1/sqrt(deg[n]) where deg[n] > 0, else 0
    norm[e]    = dinv[pick(src[e])] * ew[e] * dinv[pick(dst[e])]
    xl1[n, c]  = sum over k of x[n, k] * W1[k, c]
    msg1[e, c] = xl1[pick(src[e]), c] * norm[e]
    out1[n, c] = 0 + sum of msg1[e, c] over the edges e landing on n
    xl2[n, j]  = sum over c of max(out1[n, c] + b1[c], 0) * W2[c, j]
    msg2, out2 likewise from xl2;  result[n, j] = out2[n, j] + b2[j].

  Each stage is spelt with the program's own operations, so that reading the program's buffers back gives these
  terms syntactically; the two matrix products and the two edge-wise scalings (the four kernel launches) are spelt as
  the whole-array functions the launches leave.
-/
import proofs.«141327_j15882789060739_2_alg».proof.KernelIdeal
import proofs.«141327_j15882789060739_2_alg».proof.Proof.Gen.KernelIdeal
import Idealize.ShloMosaic.Lib.ValueIdx

set_option maxRecDepth 16384

noncomputable section

namespace Cert.KernelIdeal.Stage

open Idealize.ShloMosaic Idealize.ShloMosaic.ValueIdx Cert.KernelIdeal Cert.KernelIdeal.Gen

abbrev A0 := FVec Ideal S100000x40 .f32
abbrev A1 := IVec S2x1600000 32
abbrev A2 := FVec Ideal S1600000 .f32
abbrev A3 := FVec Ideal S40x64 .f32
abbrev A4 := FVec Ideal S64 .f32
abbrev A5 := FVec Ideal S64x40 .f32
abbrev A6 := FVec Ideal S40 .f32

/-- The source words of the given edges, then of the self loops (node n's loop starts at n). -/
def src5 (x1 : A1) : IVec S1700000 32 :=
  concatenate S1700000 0 [⟨S1600000, shapeCast _ (extractStridedSlice S1x1600000 ![0, 0] x1 slices_S2x1600000_S1x1600000_0_0) shapeCasts_S1x1600000_S1600000⟩,
    ⟨S100000, iotaInDim S100000 32 0⟩] concatenates_S1600000_S100000_S1700000_d0

/-- The target words of the given edges, then of the self loops. -/
def dst6 (x1 : A1) : IVec S1700000 32 :=
  concatenate S1700000 0 [⟨S1600000, shapeCast _ (extractStridedSlice S1x1600000 ![1, 0] x1 slices_S2x1600000_S1x1600000_1_0) shapeCasts_S1x1600000_S1600000⟩,
    ⟨S100000, iotaInDim S100000 32 0⟩] concatenates_S1600000_S100000_S1700000_d0

/-- The weights of the given edges, then weight 1 for every self loop. -/
def ew8 (x2 : A2) : FVec Ideal S1700000 .f32 :=
  concatenate S1700000 0 [⟨S1600000, x2⟩,
    ⟨S100000, broadcastInDim S100000 ![] bcast_S_S100000 (constant (F := Ideal) S_ .f32 0x3F800000#32)⟩] concatenates_S1600000_S100000_S1700000_d0

/-- Source words padded with 3936 zero words. -/
def ksrc (x1 : A1) : IVec S1703936 32 :=
  concatenate S1703936 0 [⟨S1700000, src5 x1⟩, ⟨S3936, broadcastInDim S3936 ![] bcast_S_S3936 (constantI S_ 32 0#32)⟩] concatenates_S1700000_S3936_S1703936_d0

/-- Target words padded with 3936 zero words. -/
def kdst (x1 : A1) : IVec S1703936 32 :=
  concatenate S1703936 0 [⟨S1700000, dst6 x1⟩, ⟨S3936, broadcastInDim S3936 ![] bcast_S_S3936 (constantI S_ 32 0#32)⟩] concatenates_S1700000_S3936_S1703936_d0

/-- Weights padded with 3936 zero weights. -/
def kew (x2 : A2) : FVec Ideal S1703936 .f32 :=
  concatenate S1703936 0 [⟨S1700000, ew8 x2⟩, ⟨S3936, broadcastInDim S3936 ![] bcast_S_S3936 (constant (F := Ideal) S_ .f32 0x00000000#32)⟩] concatenates_S1700000_S3936_S1703936_d0

/-- A word column [E] as the [E, 1] column of scatter indices. -/
def col (s : IVec S1703936 32) : IVec S1703936x1 32 :=
  broadcastInDim S1703936x1 ![0] bcast_S1703936_S1703936x1_0 s

/-- The gather's start column: a negative word is raised by N = 100000 (the gather then clamps). -/
def sel (s : IVec S1703936 32) : IVec S1703936x1 32 :=
  broadcastInDim S1703936x1 ![0] bcast_S1703936_S1703936x1_0
    (select (cmpi .slt s (broadcastInDim S1703936 ![] bcast_S_S1703936 (constantI S_ 32 0#32)))
      (addi s (broadcastInDim S1703936 ![] bcast_S_S1703936 (constantI S_ 32 100000#32))) s)

/-- Weighted in-degree: the weights scattered onto their target nodes, from zero. -/
def kdeg (x1 : A1) (x2 : A2) : FVec Ideal S100000 .f32 :=
  Host.scatterAdd (F := Ideal) scatter_S100000_S1703936x1_S1703936_n_0_0_1
    (broadcastInDim S100000 ![] bcast_S_S100000 (constant (F := Ideal) S_ .f32 0x00000000#32)) (col (kdst x1)) (kew x2)

/-- deg ↦ deg^(-1/2) where deg > 0, else 0. -/
def dinvOf (deg : FVec Ideal S100000 .f32) : FVec Ideal S100000 .f32 :=
  select (cmpf (F := Ideal) .ogt deg (broadcastInDim S100000 ![] bcast_S_S100000 (constant (F := Ideal) S_ .f32 0x00000000#32)))
    (Host.rsqrt (F := Ideal) deg)
    (broadcastInDim S100000 ![] bcast_S_S100000 (id (constant (F := Ideal) S_ .f32 0x00000000#32)))

/-- The symmetric normalisation coefficient of every edge. -/
def knorm (x1 : A1) (x2 : A2) : FVec Ideal S1703936 .f32 :=
  mulf (F := Ideal) (mulf (F := Ideal) (Host.gather gather_S100000_S1703936x1_S1703936_n_0_n_n_0_1_1 (dinvOf (kdeg x1 x2)) (sel (ksrc x1))) (kew x2))
    (Host.gather gather_S100000_S1703936x1_S1703936_n_0_n_n_0_1_1 (dinvOf (kdeg x1 x2)) (sel (kdst x1)))

/-- The coefficients as an [E, 1] column. -/
def knorm2d (x1 : A1) (x2 : A2) : FVec Ideal S1703936x1 .f32 :=
  shapeCast _ (knorm x1 x2) shapeCasts_S1703936_S1703936x1

/-- Layer 1's linear transform x · W1. -/
def xl1 (x0 : A0) (x3 : A3) : FVec Ideal S100000x64 .f32 :=
  fun i => ∑ k : Fin 40, x0 (ix2 (i 0) k) * x3 (ix2 k (i 1))

/-- Layer 1's messages: the source node's transformed row, scaled by the edge's coefficient. -/
def msg1 (x0 : A0) (x1 : A1) (x2 : A2) (x3 : A3) : FVec Ideal S1703936x64 .f32 :=
  fun i => Host.gather gather_S100000x64_S1703936x1_S1703936x64_1_0_n_n_0_1_164 (xl1 x0 x3) (sel (ksrc x1)) i
    * knorm2d x1 x2 (ix2 (i 0) (0 : Fin 1))

/-- Layer 1's aggregation: the messages scattered onto their target nodes, from zero. -/
def out1 (x0 : A0) (x1 : A1) (x2 : A2) (x3 : A3) : FVec Ideal S100000x64 .f32 :=
  Host.scatterAdd (F := Ideal) scatter_S100000x64_S1703936x1_S1703936x64_1_0_0_1
    (broadcastInDim S100000x64 ![] bcast_S_S100000x64 (constant (F := Ideal) S_ .f32 0x00000000#32)) (col (kdst x1)) (msg1 x0 x1 x2 x3)

/-- The hidden bias as a [1, 64] row. -/
def b1row (x4 : A4) : FVec Ideal S1x64 .f32 := shapeCast _ x4 shapeCasts_S64_S1x64

/-- Layer 2's linear transform relu(out1 + b1) · W2. -/
def xl2 (x0 : A0) (x1 : A1) (x2 : A2) (x3 : A3) (x4 : A4) (x5 : A5) : FVec Ideal S100000x40 .f32 :=
  fun i => ∑ k : Fin 64, max (out1 x0 x1 x2 x3 (ix2 (i 0) k) + b1row x4 (ix2 (0 : Fin 1) k)) (Ideal.ofBits .f32 0x00000000#32)
    * x5 (ix2 k (i 1))

/-- Layer 2's messages. -/
def msg2 (x0 : A0) (x1 : A1) (x2 : A2) (x3 : A3) (x4 : A4) (x5 : A5) : FVec Ideal S1703936x40 .f32 :=
  fun i => Host.gather gather_S100000x40_S1703936x1_S1703936x40_1_0_n_n_0_1_140 (xl2 x0 x1 x2 x3 x4 x5) (sel (ksrc x1)) i
    * knorm2d x1 x2 (ix2 (i 0) (0 : Fin 1))

/-- Layer 2's aggregation. -/
def out2 (x0 : A0) (x1 : A1) (x2 : A2) (x3 : A3) (x4 : A4) (x5 : A5) : FVec Ideal S100000x40 .f32 :=
  Host.scatterAdd (F := Ideal) scatter_S100000x40_S1703936x1_S1703936x40_1_0_0_1
    (broadcastInDim S100000x40 ![] bcast_S_S100000x40 (constant (F := Ideal) S_ .f32 0x00000000#32)) (col (kdst x1)) (msg2 x0 x1 x2 x3 x4 x5)

/-- The program's result: layer 2's aggregation plus the output bias on every row. -/
def result (x0 : A0) (x1 : A1) (x2 : A2) (x3 : A3) (x4 : A4) (x5 : A5) (x6 : A6) : FVec Ideal S100000x40 .f32 :=
  addf (F := Ideal) (out2 x0 x1 x2 x3 x4 x5)
    (broadcastInDim S100000x40 ![0, 1] bcast_S1x40_S100000x40_0_1 (broadcastInDim S1x40 ![1] bcast_S40_S1x40_1 x6))

end Cert.KernelIdeal.Stage

end
-- ==== Proof.RegionScale.lean ====
import proofs.«141327_j15882789060739_2_alg».proof.Proof.Gen.KernelIdeal.Frame
import Idealize.ShloMosaic.Lib.ValueIdx
import Idealize.ShloMosaic.Lib.Pipeline.Value

/-! # The two scale regions as whole-array functions

Regions 1 and 3 of the program multiply a two-dimensional array, row by row, by a one-column array: the grid has 208
points, point t stages rows 8192·t … 8192·t + 8191 of the wide array (all its columns) and the same rows of the
one-column array, multiplies every entry (r, f) of the wide block by the column block's entry (r, 0), and writes the
product block back over the same rows of the output array. 208 · 8192 = 1703936, so the blocks tile the arrays, and the
output array ends as: entry (e, f) = input (e, f) · column (e, 0). Everything here is at the extended reals. -/

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

/-! ## Two general facts -/

/-- The body's loads and its store start at the origin of their staging buffers. -/
theorem origin_offsets : (![0, 0] : Fin 2 → Nat) = fun _ => 0 := funext fun a => by fin_cases a <;> rfl

/-- An [a, 1] array broadcast to [a, b] reads, at (p, q), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## Region 1: 64 columns -/

/-- The body's product at an entry of the block: the wide block's entry times the column block's entry of the same row
    (the two shape casts are to the same shape, the broadcast repeats the column along the row). -/
theorem scale64_payload (x0 : Vec Ideal S8192x64 .f32) (x1 : Vec Ideal S8192x1 .f32) (j : S8192x64.Idx) :
    (k1_pay1 x0 x1 j : EReal) = (x0 j : EReal) * (x1 (ix2 (j 0) (0 : Fin 1)) : EReal) := by
  obtain ⟨p, q, rfl⟩ : ∃ (p : Fin 8192) (q : Fin 64), j = ix2 p q := ⟨j 0, j 1, eq_ix2 j⟩
  unfold k1_pay1
  rw [shapeCast_self, shapeCast_self, mulf_apply]
  exact congrArg (fun z : EReal => (x0 (ix2 p q) : EReal) * z) (broadcastTo_a1_ab_apply x1 broadcasts_S8192x1_S8192x64 p q)

/-- The three index maps, decided over the 208 grid points: at point t every window's block is block row t, block
    column 0 of its array. -/
theorem scale64_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The output array as one function of the two input arrays: entry (e, f) is the wide array's entry (e, f) times the
    column array's entry (e, 0). -/
abbrev scale64_G (a0 : S1703936x64.Idx → EReal) (a1 : S1703936x1.Idx → EReal) : S1703936x64.Idx → EReal :=
  fun i => a0 i * a1 (ix2 (i 0) (0 : Fin 1))

/-- What point t writes back is block t of that function of the arrays the region finds: the wide input's block and
    the output's block are the same rectangle of their arrays, and row r of the column block is the row of the column
    array that row r of the output block lies on. -/
theorem scale64_flushed (c : Dev nD) (t : Fin cfg1.N) :
    (dat1 (F := Ideal) V c).flushed 2 t
      = ((cfg1.win 2).blk t).view.read (Elt Ideal) (scale64_G (V c main_v47) (V c main_v38)) := by
  show (cfg1.win 2).cut (grid1.coords t) ((dat1 (F := Ideal) V c).after 2 t) = _
  rw [after1_2]
  unfold out1_2
  rw [View.canon_unit_zero origin_offsets]
  simp only [View.ld_unit_zero (S := S8192x64) origin_offsets, View.ld_unit_zero (S := S8192x1) origin_offsets]
  obtain ⟨e0, e1, e2, e3, e4, e5⟩ := scale64_index t
  funext j
  refine (scale64_payload (iblk1 V c 0 t) (iblk1 V c 1 t) j).trans ?_
  show @HMul.hMul EReal EReal EReal instHMul (V c main_v47 (((cfg1.win 0).blk t).view.emb j))
        (V c main_v38 (((cfg1.win 1).blk t).view.emb (ix2 (j 0) (0 : Fin 1))))
      = @HMul.hMul EReal EReal EReal instHMul (V c main_v47 (((cfg1.win 2).blk t).view.emb j))
        (V c main_v38 (ix2 ((((cfg1.win 2).blk t).view.emb j) 0) (0 : Fin 1)))
  have h0 : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (ix2 (j 0) (0 : Fin 1)) = ix2 ((((cfg1.win 2).blk t).view.emb j) 0) (0 : Fin 1) := by
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega
  rw [h0, h1]
  rfl

/-- An index of the output array is in point t's block iff each coordinate is in the block's range on its axis. -/
theorem scale64_mem_blk (t : Fin cfg1.N) (i : S1703936x64.Idx) :
    i ∈ ((cfg1.win 2).blk t).view.set ↔ ∀ a : Fin 2, win1_2.index t a * S8192x64.size a ≤ (i a).val
      ∧ (i a).val < win1_2.index t a * S8192x64.size a + S8192x64.size a := by
  show i ∈ ((View.whole main_v48).slice (win1_2.rect t)).set ↔ _
  rw [View.set_slice_whole, Rect.mem_set_unit]
  exact Iff.rfl

/-- Every index of the output array is in some point's block: row e lies in block e / 8192, and every block has all
    64 columns. -/
theorem scale64_cover (i : S1703936x64.Idx) :
    ∃ t : Fin cfg1.N, (cfg1.win 2).flush t = true ∧ i ∈ ((cfg1.win 2).blk t).view.set := by
  have hi0 : (i 0).val < 1703936 := (i 0).isLt
  have hi1 : (i 1).val < 64 := (i 1).isLt
  have ht : (i 0).val / 8192 < cfg1.N := by show (i 0).val / 8192 < 208; omega
  obtain ⟨e0, e1, e2, e3, e4, e5⟩ := scale64_index ⟨(i 0).val / 8192, ht⟩
  have e4' : win1_2.index ⟨(i 0).val / 8192, ht⟩ (0 : Fin 2) = (i 0).val / 8192 := e4
  refine ⟨⟨(i 0).val / 8192, ht⟩, flush1_2 _, ?_⟩
  rw [scale64_mem_blk]
  intro a
  match a with
  | ⟨0, _⟩ =>
    show win1_2.index ⟨(i 0).val / 8192, ht⟩ (0 : Fin 2) * 8192 ≤ (i 0).val
      ∧ (i 0).val < win1_2.index ⟨(i 0).val / 8192, ht⟩ (0 : Fin 2) * 8192 + 8192
    omega
  | ⟨1, _⟩ =>
    show win1_2.index ⟨(i 0).val / 8192, ht⟩ (1 : Fin 2) * 64 ≤ (i 1).val
      ∧ (i 1).val < win1_2.index ⟨(i 0).val / 8192, ht⟩ (1 : Fin 2) * 64 + 64
    omega

/-- REGION 1's OUTPUT ARRAY after all 208 write-backs: entry (e, f) is the wide input's entry (e, f) times the column
    input's entry (e, 0). -/
theorem scale64_arr (c : Dev nD) :
    ((dat1 (F := Ideal) V c).arrAt 2 cfg1.N : S1703936x64.Idx → EReal)
      = fun i => @HMul.hMul EReal EReal EReal instHMul (V c main_v47 i) (V c main_v38 (ix2 (i 0) (0 : Fin 1))) :=
  (dat1 (F := Ideal) V c).arrAt_eq_of_cover 2 (scale64_G (V c main_v47) (V c main_v38))
    (fun t _ => scale64_flushed V c t) scale64_cover

/-! ## Region 3: 40 columns

The same kernel on a 40-column array; the column array is the same one. -/

/-- The body's product at an entry of the block: the wide block's entry times the column block's entry of the same row
    (the two shape casts are to the same shape, the broadcast repeats the column along the row). -/
theorem scale40_payload (x0 : Vec Ideal S8192x40 .f32) (x1 : Vec Ideal S8192x1 .f32) (j : S8192x40.Idx) :
    (k3_pay1 x0 x1 j : EReal) = (x0 j : EReal) * (x1 (ix2 (j 0) (0 : Fin 1)) : EReal) := by
  obtain ⟨p, q, rfl⟩ : ∃ (p : Fin 8192) (q : Fin 40), j = ix2 p q := ⟨j 0, j 1, eq_ix2 j⟩
  unfold k3_pay1
  rw [shapeCast_self, shapeCast_self, mulf_apply]
  exact congrArg (fun z : EReal => (x0 (ix2 p q) : EReal) * z) (broadcastTo_a1_ab_apply x1 broadcasts_S8192x1_S8192x40 p q)

/-- The three index maps, decided over the 208 grid points: at point t every window's block is block row t, block
    column 0 of its array. -/
theorem scale40_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The output array as one function of the two input arrays: entry (e, f) is the wide array's entry (e, f) times the
    column array's entry (e, 0). -/
abbrev scale40_G (a0 : S1703936x40.Idx → EReal) (a1 : S1703936x1.Idx → EReal) : S1703936x40.Idx → EReal :=
  fun i => a0 i * a1 (ix2 (i 0) (0 : Fin 1))

/-- What point t writes back is block t of that function of the arrays the region finds: the wide input's block and
    the output's block are the same rectangle of their arrays, and row r of the column block is the row of the column
    array that row r of the output block lies on. -/
theorem scale40_flushed (c : Dev nD) (t : Fin cfg3.N) :
    (dat3 (F := Ideal) V c).flushed 2 t
      = ((cfg3.win 2).blk t).view.read (Elt Ideal) (scale40_G (V c main_v60) (V c main_v38)) := by
  show (cfg3.win 2).cut (grid3.coords t) ((dat3 (F := Ideal) V c).after 2 t) = _
  rw [after3_2]
  unfold out3_2
  rw [View.canon_unit_zero origin_offsets]
  simp only [View.ld_unit_zero (S := S8192x40) origin_offsets, View.ld_unit_zero (S := S8192x1) origin_offsets]
  obtain ⟨e0, e1, e2, e3, e4, e5⟩ := scale40_index t
  funext j
  refine (scale40_payload (iblk3 V c 0 t) (iblk3 V c 1 t) j).trans ?_
  show @HMul.hMul EReal EReal EReal instHMul (V c main_v60 (((cfg3.win 0).blk t).view.emb j))
        (V c main_v38 (((cfg3.win 1).blk t).view.emb (ix2 (j 0) (0 : Fin 1))))
      = @HMul.hMul EReal EReal EReal instHMul (V c main_v60 (((cfg3.win 2).blk t).view.emb j))
        (V c main_v38 (ix2 ((((cfg3.win 2).blk t).view.emb j) 0) (0 : Fin 1)))
  have h0 : ((cfg3.win 0).blk t).view.emb j = ((cfg3.win 2).blk t).view.emb j := by
    funext a; apply Fin.ext
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 40 + 1 * (j 1).val = win3_2.index t (1 : Fin 2) * 40 + 1 * (j 1).val; omega
  have h1 : ((cfg3.win 1).blk t).view.emb (ix2 (j 0) (0 : Fin 1)) = ix2 ((((cfg3.win 2).blk t).view.emb j) 0) (0 : Fin 1) := by
    funext a; apply Fin.ext
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 1 + 1 * 0 = 0; omega
  rw [h0, h1]
  rfl

/-- An index of the output array is in point t's block iff each coordinate is in the block's range on its axis. -/
theorem scale40_mem_blk (t : Fin cfg3.N) (i : S1703936x40.Idx) :
    i ∈ ((cfg3.win 2).blk t).view.set ↔ ∀ a : Fin 2, win3_2.index t a * S8192x40.size a ≤ (i a).val
      ∧ (i a).val < win3_2.index t a * S8192x40.size a + S8192x40.size a := by
  show i ∈ ((View.whole main_v61).slice (win3_2.rect t)).set ↔ _
  rw [View.set_slice_whole, Rect.mem_set_unit]
  exact Iff.rfl

/-- Every index of the output array is in some point's block: row e lies in block e / 8192, and every block has all
    40 columns. -/
theorem scale40_cover (i : S1703936x40.Idx) :
    ∃ t : Fin cfg3.N, (cfg3.win 2).flush t = true ∧ i ∈ ((cfg3.win 2).blk t).view.set := by
  have hi0 : (i 0).val < 1703936 := (i 0).isLt
  have hi1 : (i 1).val < 40 := (i 1).isLt
  have ht : (i 0).val / 8192 < cfg3.N := by show (i 0).val / 8192 < 208; omega
  obtain ⟨e0, e1, e2, e3, e4, e5⟩ := scale40_index ⟨(i 0).val / 8192, ht⟩
  have e4' : win3_2.index ⟨(i 0).val / 8192, ht⟩ (0 : Fin 2) = (i 0).val / 8192 := e4
  refine ⟨⟨(i 0).val / 8192, ht⟩, flush3_2 _, ?_⟩
  rw [scale40_mem_blk]
  intro a
  match a with
  | ⟨0, _⟩ =>
    show win3_2.index ⟨(i 0).val / 8192, ht⟩ (0 : Fin 2) * 8192 ≤ (i 0).val
      ∧ (i 0).val < win3_2.index ⟨(i 0).val / 8192, ht⟩ (0 : Fin 2) * 8192 + 8192
    omega
  | ⟨1, _⟩ =>
    show win3_2.index ⟨(i 0).val / 8192, ht⟩ (1 : Fin 2) * 40 ≤ (i 1).val
      ∧ (i 1).val < win3_2.index ⟨(i 0).val / 8192, ht⟩ (1 : Fin 2) * 40 + 40
    omega

/-- REGION 3's OUTPUT ARRAY after all 208 write-backs: entry (e, f) is the wide input's entry (e, f) times the column
    input's entry (e, 0). -/
theorem scale40_arr (c : Dev nD) :
    ((dat3 (F := Ideal) V c).arrAt 2 cfg3.N : S1703936x40.Idx → EReal)
      = fun i => @HMul.hMul EReal EReal EReal instHMul (V c main_v60 i) (V c main_v38 (ix2 (i 0) (0 : Fin 1))) :=
  (dat3 (F := Ideal) V c).arrAt_eq_of_cover 2 (scale40_G (V c main_v60) (V c main_v38))
    (fun t _ => scale40_flushed V c t) scale40_cover

end Cert.KernelIdeal.RegionValue

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.RegionLinear.lean ====
/-
  The two linear layers of the kernel program, each as ONE function of its input arrays.

  Each layer is a pipelined region over a grid of ten points. At point t it loads rows 10000 t … 10000 t + 9999 of its
  left array together with the whole weight (and, in the second layer, the whole bias row), computes a block of 10000
  result rows, and writes that block back to rows 10000 t … 10000 t + 9999 of the result array. The ten blocks tile the
  100000 rows, so after the ten write-backs the result array is, entry by entry,

    first layer:   result[r, e] = ∑ k < 40, left[r, k] · weight[k, e]
    second layer:  result[r, e] = ∑ k < 64, max (left[r, k] + bias[0, k]) 0 · weight[k, e]

  (on the extended reals: rounding an operand to a narrower float format is the identity there, and the product is
  accumulated into the zero matrix). An entry (r, e) depends on row r of the left array and column e of the weight
  only, which is why reading the arrays block by block gives the same entries as reading them whole.

  For each layer: the block indices of the windows (decided over the grid), the body's payload at an entry of the
  block, each loaded block as a piece of its array, what a point writes back as a block of the whole-array function,
  the cover of the result array by the blocks, and the array after the region.
-/
import proofs.«141327_j15882789060739_2_alg».proof.Proof.Gen.KernelIdeal.Frame
import proofs.«141327_j15882789060739_2_alg».proof.Proof.LibPlainMatmul
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RegionValue

open Idealize.ShloMosaic Idealize.ShloMosaic.TcCoe Idealize.ShloMosaic.ValueIdx Idealize.SL.Sem Cert.KernelIdeal Cert.KernelIdeal.Gen

variable (V : (c : Dev nD) → (b : Ref sig .tc) → Buf (Elt Ideal) ((c : Thread nD τ).loc b))

/-- The two zero offsets of a whole-block access, as the constant function. -/
theorem linear_zero_offsets : (![0, 0] : Fin 2 → Nat) = fun _ => 0 := funext fun a => by fin_cases a <;> rfl

/-! ## The first linear layer: rows of the left array times the whole weight

The grid has 10 points. At point `t` the left window holds rows `10000 t … 10000 t + 9999` of the [100000, 40] left array,
the weight window holds the whole [40, 64] weight (its block index is constantly 0), and the output window is rows
`10000 t … 10000 t + 9999` of the [100000, 64] result. -/

/-- The block indices, decided over the ten grid points: the left and the output window sit at block row `t`, block
    column 0; the weight window at block (0, 0). -/
theorem linear64_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_3.index t (0 : Fin 2) = t.val ∧ win0_3.index t (1 : Fin 2) = 0 :=
  (by decide +kernel : ∀ t : Fin grid0.N, _)

/-- The body's payload at entry (p, q) of the block: rounding to the narrower format is the identity on the extended
    reals, and the product into the zero accumulator is the sum over the 40 contracted positions. -/
theorem linear64_payload (x0 : Vec Ideal S10000x40 .f32) (x1 : Vec Ideal S40x64 .f32) (p : Fin 10000) (q : Fin 64) :
    k0_pay1 x0 x1 (ix2 p q) = ∑ k : Fin 40, x0 (ix2 p k) * x1 (ix2 k q) := by
  unfold k0_pay1
  exact matmul_plain_zero_apply dot_S10000x40_S40x64_S10000x64_1_0_0_1_n_n rfl none
    (truncf .bf16 x0 bitsLt_bf16_f32) (truncf .bf16 x1 bitsLt_bf16_f32) p q

/-- Entry (p, k) of the left window's block at point `t` is entry (10000 t + p, k) of the left array. -/
theorem linear64_lhs_block (c : Dev nD) (t : Fin cfg0.N) (p : Fin 10000) (k : Fin 40) (r : Fin 100000)
    (hr : r.val = t.val * 10000 + p.val) :
    iblk0 V c 0 t (ix2 p k) = (V c main_arg0 : S100000x40.Idx → EReal) (ix2 r k) := by
  obtain ⟨e0, e1, -, -, -, -⟩ := linear64_index t
  show V c main_arg0 (((cfg0.win 0).blk t).view.emb (ix2 p k)) = V c main_arg0 (ix2 r k)
  refine congrArg _ (funext fun a => Fin.ext ?_)
  match a with
  | ⟨0, _⟩ => show win0_0.index t (0 : Fin 2) * 10000 + 1 * p.val = r.val; omega
  | ⟨1, _⟩ => show win0_0.index t (1 : Fin 2) * 40 + 1 * k.val = k.val; omega

/-- The weight window's block at any point is the whole weight. -/
theorem linear64_rhs_block (c : Dev nD) (t : Fin cfg0.N) (k : Fin 40) (q : Fin 64) :
    iblk0 V c 1 t (ix2 k q) = (V c main_arg3 : S40x64.Idx → EReal) (ix2 k q) := by
  obtain ⟨-, -, e2, e3, -, -⟩ := linear64_index t
  show V c main_arg3 (((cfg0.win 1).blk t).view.emb (ix2 k q)) = V c main_arg3 (ix2 k q)
  refine congrArg _ (funext fun a => Fin.ext ?_)
  match a with
  | ⟨0, _⟩ => show win0_1.index t (0 : Fin 2) * 40 + 1 * k.val = k.val; omega
  | ⟨1, _⟩ => show win0_1.index t (1 : Fin 2) * 64 + 1 * q.val = q.val; omega

/-- The result of the first linear layer as one function of the left array and the weight: entry (r, e) is the sum over
    the 40 contracted positions k of left[r, k] · weight[k, e]. -/
abbrev linear64_G (A : S100000x40.Idx → EReal) (B : S40x64.Idx → EReal) : S100000x64.Idx → EReal :=
  fun i => ∑ k : Fin 40, A (ix2 (i 0) k) * B (ix2 k (i 1))

/-- Entry (p, q) of the output window's block at point `t` sits at (10000 t + p, q) of the result array. -/
theorem linear64_out_emb (t : Fin cfg0.N) (p : Fin 10000) (q : Fin 64) (r : Fin 100000)
    (hr : r.val = t.val * 10000 + p.val) :
    (((cfg0.win 3).blk t).view.emb (ix2 p q) : S100000x64.Idx) = ix2 r q := by
  obtain ⟨-, -, -, -, e4, e5⟩ := linear64_index t
  refine funext fun a => Fin.ext ?_
  match a with
  | ⟨0, _⟩ => show win0_3.index t (0 : Fin 2) * 10000 + 1 * p.val = r.val; omega
  | ⟨1, _⟩ => show win0_3.index t (1 : Fin 2) * 64 + 1 * q.val = q.val; omega

/-- What point `t` writes back is block `t` of `linear64_G` of the left array and the weight: the body's one store
    covers the whole output block with the product of the loaded blocks, and row p of the left block is row
    10000 t + p of the left array, the row of the result that entry lands in. -/
theorem linear64_flushed (c : Dev nD) (t : Fin cfg0.N) :
    (dat0 V c).flushed 3 t
      = ((cfg0.win 3).blk t).view.read (Elt Ideal) (linear64_G (V c main_arg0) (V c main_arg3)) := by
  show (cfg0.win 3).cut (grid0.coords t) ((dat0 V c).after 3 t) = _
  rw [after0_3]
  unfold out0_3
  rw [View.canon_unit_zero linear_zero_offsets]
  simp only [View.ld_unit_zero (S := S10000x40) linear_zero_offsets, View.ld_unit_zero (S := S40x64) linear_zero_offsets]
  funext j
  obtain ⟨p, q, rfl⟩ : ∃ (p : Fin 10000) (q : Fin 64), j = ix2 p q := ⟨j 0, j 1, eq_ix2 j⟩
  have ht : t.val < 10 := t.isLt
  have hr : t.val * 10000 + p.val < 100000 := by omega
  show k0_pay1 (iblk0 V c 0 t) (iblk0 V c 1 t) (ix2 p q)
    = linear64_G (V c main_arg0) (V c main_arg3) (((cfg0.win 3).blk t).view.emb (ix2 p q))
  rw [linear64_payload, linear64_out_emb t p q ⟨t.val * 10000 + p.val, hr⟩ rfl]
  refine Finset.sum_congr rfl fun k _ => ?_
  rw [linear64_lhs_block V c t p k ⟨t.val * 10000 + p.val, hr⟩ rfl, linear64_rhs_block V c t k q]

/-- An index of the result array is in point `t`'s block iff each coordinate is in the block's range on its axis. -/
theorem linear64_mem_block (t : Fin cfg0.N) (i : S100000x64.Idx) :
    i ∈ ((cfg0.win 3).blk t).view.set ↔ ∀ a : Fin 2, win0_3.index t a * S10000x64.size a ≤ (i a).val
      ∧ (i a).val < win0_3.index t a * S10000x64.size a + S10000x64.size a := by
  show i ∈ ((View.whole main_v40).slice (win0_3.rect t)).set ↔ _
  rw [View.set_slice_whole, Rect.mem_set_unit]
  exact Iff.rfl

/-- The ten blocks of 10000 rows tile the 100000 rows: row r is in the block of point r / 10000. -/
theorem linear64_cover (i : S100000x64.Idx) :
    ∃ t : Fin cfg0.N, (cfg0.win 3).flush t = true ∧ i ∈ ((cfg0.win 3).blk t).view.set := by
  have hi0 : (i 0).val < 100000 := idx2_lt0 i
  have hi1 : (i 1).val < 64 := idx2_lt1 i
  obtain ⟨t, ht⟩ : ∃ t : Fin cfg0.N, t.val = (i 0).val / 10000 := ⟨⟨(i 0).val / 10000, by rw [show cfg0.N = 10 from N_0]; omega⟩, rfl⟩
  obtain ⟨-, -, -, -, e4, e5⟩ := linear64_index t
  refine ⟨t, flush0_3 t, ?_⟩
  rw [linear64_mem_block]
  intro a
  match a with
  | ⟨0, _⟩ =>
    show win0_3.index t (0 : Fin 2) * 10000 ≤ (i 0).val ∧ (i 0).val < win0_3.index t (0 : Fin 2) * 10000 + 10000
    omega
  | ⟨1, _⟩ =>
    show win0_3.index t (1 : Fin 2) * 64 ≤ (i 1).val ∧ (i 1).val < win0_3.index t (1 : Fin 2) * 64 + 64
    omega

/-- THE FIRST LINEAR LAYER'S RESULT ARRAY after the ten write-backs: entry (r, e) is ∑ k, left[r, k] · weight[k, e]. -/
theorem linear64_arr (c : Dev nD) :
    (dat0 (F := Ideal) V c).arrAt 3 cfg0.N = linear64_G (V c main_arg0) (V c main_arg3) :=
  (dat0 V c).arrAt_eq_of_cover 3 (linear64_G (V c main_arg0) (V c main_arg3)) (fun t _ => linear64_flushed V c t) linear64_cover

/-! ## The second linear layer: bias, rectifier, then rows times the whole weight

Again 10 points. At point `t` the left window holds rows `10000 t … 10000 t + 9999` of the [100000, 64] left array, the
weight window the whole [64, 40] weight, the bias window the whole [1, 64] bias row, and the output window rows
`10000 t … 10000 t + 9999` of the [100000, 40] result. -/

/-- The block indices, decided over the ten grid points: the left and the output window sit at block row `t`, block
    column 0; the weight and the bias window at block (0, 0). -/
theorem linear40_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's payload at entry (p, q) of the block: the bias row is added to every row of the left block, the
    maximum with the zero word is taken entry by entry, rounding to the narrower format is the identity on the
    extended reals, and the product into the zero accumulator is the sum over the 64 contracted positions. -/
theorem linear40_payload (x0 : Vec Ideal S10000x64 .f32) (b : Vec Ideal S1x64 .f32) (w : Vec Ideal S64x40 .f32)
    (p : Fin 10000) (q : Fin 40) :
    k2_pay1 x0 b w (ix2 p q)
      = ∑ k : Fin 64, max (x0 (ix2 p k) + b (ix2 (0 : Fin 1) k)) (Ideal.ofBits .f32 0x00000000#32) * w (ix2 k q) := by
  unfold k2_pay1
  refine (matmul_plain_zero_apply dot_S10000x64_S64x40_S10000x40_1_0_0_1_n_n rfl none _ _ p q).trans ?_
  refine Finset.sum_congr rfl fun k _ => ?_
  rw [truncf_apply, truncf_apply, maximumf_apply, addf_apply, broadcast_apply, shapeCast_self, shapeCast_self,
    broadcastTo_1b_ab_apply]
  rfl

/-- Entry (p, k) of the left window's block at point `t` is entry (10000 t + p, k) of the left array. -/
theorem linear40_lhs_block (c : Dev nD) (t : Fin cfg2.N) (p : Fin 10000) (k : Fin 64) (r : Fin 100000)
    (hr : r.val = t.val * 10000 + p.val) :
    iblk2 V c 0 t (ix2 p k) = (V c main_v51 : S100000x64.Idx → EReal) (ix2 r k) := by
  obtain ⟨e0, e1, -, -, -, -, -, -⟩ := linear40_index t
  show V c main_v51 (((cfg2.win 0).blk t).view.emb (ix2 p k)) = V c main_v51 (ix2 r k)
  refine congrArg _ (funext fun a => Fin.ext ?_)
  match a with
  | ⟨0, _⟩ => show win2_0.index t (0 : Fin 2) * 10000 + 1 * p.val = r.val; omega
  | ⟨1, _⟩ => show win2_0.index t (1 : Fin 2) * 64 + 1 * k.val = k.val; omega

/-- The weight window's block at any point is the whole weight. -/
theorem linear40_rhs_block (c : Dev nD) (t : Fin cfg2.N) (k : Fin 64) (q : Fin 40) :
    iblk2 V c 1 t (ix2 k q) = (V c main_arg5 : S64x40.Idx → EReal) (ix2 k q) := by
  obtain ⟨-, -, e2, e3, -, -, -, -⟩ := linear40_index t
  show V c main_arg5 (((cfg2.win 1).blk t).view.emb (ix2 k q)) = V c main_arg5 (ix2 k q)
  refine congrArg _ (funext fun a => Fin.ext ?_)
  match a with
  | ⟨0, _⟩ => show win2_1.index t (0 : Fin 2) * 64 + 1 * k.val = k.val; omega
  | ⟨1, _⟩ => show win2_1.index t (1 : Fin 2) * 40 + 1 * q.val = q.val; omega

/-- The bias window's block at any point is the whole bias row. -/
theorem linear40_bias_block (c : Dev nD) (t : Fin cfg2.N) (z : Fin 1) (k : Fin 64) :
    iblk2 V c 2 t (ix2 z k) = (V c main_v52 : S1x64.Idx → EReal) (ix2 z k) := by
  obtain ⟨-, -, -, -, e4, e5, -, -⟩ := linear40_index t
  show V c main_v52 (((cfg2.win 2).blk t).view.emb (ix2 z k)) = V c main_v52 (ix2 z k)
  refine congrArg _ (funext fun a => Fin.ext ?_)
  match a with
  | ⟨0, _⟩ => show win2_2.index t (0 : Fin 2) * 1 + 1 * z.val = z.val; omega
  | ⟨1, _⟩ => show win2_2.index t (1 : Fin 2) * 64 + 1 * k.val = k.val; omega

/-- The result of the second linear layer as one function of the left array, the bias row and the weight: entry (r, e)
    is the sum over the 64 contracted positions k of max (left[r, k] + bias[0, k]) 0 · weight[k, e], the zero being the
    extended real the all-zero word denotes. -/
abbrev linear40_G (A : S100000x64.Idx → EReal) (b : S1x64.Idx → EReal) (B : S64x40.Idx → EReal) : S100000x40.Idx → EReal :=
  fun i => ∑ k : Fin 64, max (A (ix2 (i 0) k) + b (ix2 (0 : Fin 1) k)) (Ideal.ofBits .f32 0x00000000#32) * B (ix2 k (i 1))

/-- Entry (p, q) of the output window's block at point `t` sits at (10000 t + p, q) of the result array. -/
theorem linear40_out_emb (t : Fin cfg2.N) (p : Fin 10000) (q : Fin 40) (r : Fin 100000)
    (hr : r.val = t.val * 10000 + p.val) :
    (((cfg2.win 3).blk t).view.emb (ix2 p q) : S100000x40.Idx) = ix2 r q := by
  obtain ⟨-, -, -, -, -, -, e6, e7⟩ := linear40_index t
  refine funext fun a => Fin.ext ?_
  match a with
  | ⟨0, _⟩ => show win2_3.index t (0 : Fin 2) * 10000 + 1 * p.val = r.val; omega
  | ⟨1, _⟩ => show win2_3.index t (1 : Fin 2) * 40 + 1 * q.val = q.val; omega

/-- What point `t` writes back is block `t` of `linear40_G` of the left array, the bias row and the weight: the body's one
    store covers the whole output block with the payload of the loaded blocks, and row p of the left block is row
    10000 t + p of the left array, the row of the result that entry lands in. -/
theorem linear40_flushed (c : Dev nD) (t : Fin cfg2.N) :
    (dat2 V c).flushed 3 t
      = ((cfg2.win 3).blk t).view.read (Elt Ideal) (linear40_G (V c main_v51) (V c main_v52) (V c main_arg5)) := by
  show (cfg2.win 3).cut (grid2.coords t) ((dat2 V c).after 3 t) = _
  rw [after2_3]
  unfold out2_3
  rw [View.canon_unit_zero linear_zero_offsets]
  simp only [View.ld_unit_zero (S := S10000x64) linear_zero_offsets, View.ld_unit_zero (S := S1x64) linear_zero_offsets,
    View.ld_unit_zero (S := S64x40) linear_zero_offsets]
  funext j
  obtain ⟨p, q, rfl⟩ : ∃ (p : Fin 10000) (q : Fin 40), j = ix2 p q := ⟨j 0, j 1, eq_ix2 j⟩
  have ht : t.val < 10 := t.isLt
  have hr : t.val * 10000 + p.val < 100000 := by omega
  show k2_pay1 (iblk2 V c 0 t) (iblk2 V c 2 t) (iblk2 V c 1 t) (ix2 p q)
    = linear40_G (V c main_v51) (V c main_v52) (V c main_arg5) (((cfg2.win 3).blk t).view.emb (ix2 p q))
  rw [linear40_payload, linear40_out_emb t p q ⟨t.val * 10000 + p.val, hr⟩ rfl]
  refine Finset.sum_congr rfl fun k _ => ?_
  rw [linear40_lhs_block V c t p k ⟨t.val * 10000 + p.val, hr⟩ rfl, linear40_bias_block V c t 0 k,
    linear40_rhs_block V c t k q]

/-- An index of the result array is in point `t`'s block iff each coordinate is in the block's range on its axis. -/
theorem linear40_mem_block (t : Fin cfg2.N) (i : S100000x40.Idx) :
    i ∈ ((cfg2.win 3).blk t).view.set ↔ ∀ a : Fin 2, win2_3.index t a * S10000x40.size a ≤ (i a).val
      ∧ (i a).val < win2_3.index t a * S10000x40.size a + S10000x40.size a := by
  show i ∈ ((View.whole main_v53).slice (win2_3.rect t)).set ↔ _
  rw [View.set_slice_whole, Rect.mem_set_unit]
  exact Iff.rfl

/-- The ten blocks of 10000 rows tile the 100000 rows: row r is in the block of point r / 10000. -/
theorem linear40_cover (i : S100000x40.Idx) :
    ∃ t : Fin cfg2.N, (cfg2.win 3).flush t = true ∧ i ∈ ((cfg2.win 3).blk t).view.set := by
  have hi0 : (i 0).val < 100000 := idx2_lt0 i
  have hi1 : (i 1).val < 40 := idx2_lt1 i
  obtain ⟨t, ht⟩ : ∃ t : Fin cfg2.N, t.val = (i 0).val / 10000 := ⟨⟨(i 0).val / 10000, by rw [show cfg2.N = 10 from N_2]; omega⟩, rfl⟩
  obtain ⟨-, -, -, -, -, -, e6, e7⟩ := linear40_index t
  refine ⟨t, flush2_3 t, ?_⟩
  rw [linear40_mem_block]
  intro a
  match a with
  | ⟨0, _⟩ =>
    show win2_3.index t (0 : Fin 2) * 10000 ≤ (i 0).val ∧ (i 0).val < win2_3.index t (0 : Fin 2) * 10000 + 10000
    omega
  | ⟨1, _⟩ =>
    show win2_3.index t (1 : Fin 2) * 40 ≤ (i 1).val ∧ (i 1).val < win2_3.index t (1 : Fin 2) * 40 + 40
    omega

/-- THE SECOND LINEAR LAYER'S RESULT ARRAY after the ten write-backs: entry (r, e) is
    ∑ k, max (left[r, k] + bias[0, k]) 0 · weight[k, e]. -/
theorem linear40_arr (c : Dev nD) :
    (dat2 (F := Ideal) V c).arrAt 3 cfg2.N = linear40_G (V c main_v51) (V c main_v52) (V c main_arg5) :=
  (dat2 V c).arrAt_eq_of_cover 3 (linear40_G (V c main_v51) (V c main_v52) (V c main_arg5))
    (fun t _ => linear40_flushed V c t) linear40_cover

end Cert.KernelIdeal.RegionValue

end
-- ==== Proof.KernelFold.lean ====
/-
  The idealized kernel program's result buffer, read back through the run's eleven segments.

  The run's buffer contents at each boundary are a fold from the launch memory. Walking it backwards from the result
  buffer: the closing stretch adds the output bias to layer 2's aggregation, a scatter of launch 3's output; launch 3
  scales the gathered rows of launch 2's output by the edge coefficients; launch 2 multiplies relu(layer 1's
  aggregation + hidden bias) by the second weight; and so on down to the opening stretches, which build the padded
  edge list, the degrees and the coefficients from the argument arrays. Between a buffer's writer and its readers lie
  launches and host stretches that do not touch it: a launch changes only its own windows' arrays (and leaves its input
  windows' arrays as entered), a host stretch only the buffers its operations write. Every step is one of three
  kinds: a host stretch's operations applied to what it reads, a launch's output array as a whole-array function of
  its input arrays, or a buffer carried unchanged across a segment.
-/
import proofs.«141327_j15882789060739_2_alg».proof.Proof.Gen.KernelIdeal.Frame
import proofs.«141327_j15882789060739_2_alg».proof.Proof.KernelStages
import proofs.«141327_j15882789060739_2_alg».proof.Proof.RegionScale
import proofs.«141327_j15882789060739_2_alg».proof.Proof.RegionLinear
import Idealize.ShloMosaic.Lib.StableHlo.Run

set_option maxRecDepth 16384

noncomputable section

namespace Cert.KernelIdeal.Fold

open Cert.KernelIdeal Cert.KernelIdeal.Gen Cert.KernelIdeal.Stage Cert.KernelIdeal.RegionValue
open Idealize.ShloMosaic Idealize.ShloMosaic.TcCoe Idealize.ShloMosaic.ValueIdx Idealize.SL.Sem Idealize.ShloMosaic.StableHlo

/-- A buffer that no operation of a host stretch writes holds after the stretch what it held before. -/
macro "host_keeps " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- The coefficient column from ANY inverse square roots, word columns and weights: every edge's weight times the inverse
    square roots at its two end nodes, as an [E, 1] column. -/
def normOf (dinv : FVec Ideal S100000 .f32) (s d : IVec S1703936 32) (ew : FVec Ideal S1703936 .f32) : FVec Ideal S1703936x1 .f32 :=
  shapeCast S1703936x1 (mulf (F := Ideal) (mulf (F := Ideal)
      (Host.gather gather_S100000_S1703936x1_S1703936_n_0_n_n_0_1_1 dinv (sel s)) ew)
      (Host.gather gather_S100000_S1703936x1_S1703936_n_0_n_n_0_1_1 dinv (sel d)))
    shapeCasts_S1703936_S1703936x1

/-! ## Each host stretch, from ANY contents `Vv` of the buffers it reads -/

section Stretches
variable (Vv : Valuation τ sig (Elt Ideal))

/-- The first stretch builds the padded edge list (source words, target words, weights). -/
theorem pre_v10 : StableHlo.after (hostOps0 (F := Ideal)) Vv (Proc.devRef .tc main_v10) = ksrc (Vv (Proc.devRef .tc main_arg1)) := by
  after_results; rfl
theorem pre_v12 : StableHlo.after (hostOps0 (F := Ideal)) Vv (Proc.devRef .tc main_v12) = kdst (Vv (Proc.devRef .tc main_arg1)) := by
  after_results; rfl
theorem pre_v14 : StableHlo.after (hostOps0 (F := Ideal)) Vv (Proc.devRef .tc main_v14) = kew (Vv (Proc.devRef .tc main_arg2)) := by
  after_results; rfl
/-- The first stretch also leaves the degree's sign test, its inverse square root, and the zero the outlined
    `where` falls back to. -/
theorem pre_v19 : StableHlo.after (hostOps0 (F := Ideal)) Vv (Proc.devRef .tc main_v19)
    = cmpf (F := Ideal) .ogt (kdeg (Vv (Proc.devRef .tc main_arg1)) (Vv (Proc.devRef .tc main_arg2)))
        (broadcastInDim S100000 ![] bcast_S_S100000 (constant (F := Ideal) S_ .f32 0x00000000#32)) := by
  after_results; rfl
theorem pre_v20 : StableHlo.after (hostOps0 (F := Ideal)) Vv (Proc.devRef .tc main_v20)
    = Host.rsqrt (F := Ideal) (kdeg (Vv (Proc.devRef .tc main_arg1)) (Vv (Proc.devRef .tc main_arg2))) := by
  after_results; rfl
theorem pre_cst4 : StableHlo.after (hostOps0 (F := Ideal)) Vv (Proc.devRef .tc main_cst_4) = constant (F := Ideal) S_ .f32 0x00000000#32 := by
  after_results
/-- The outlined `where`: the second operand where the test holds, else the broadcast scalar. -/
theorem call_v21 : StableHlo.after (hostOps0_1 (F := Ideal)) Vv (Proc.devRef .tc main_v21)
    = select (Vv (Proc.devRef .tc main_v19) : IVec S100000 1) (Vv (Proc.devRef .tc main_v20) : FVec Ideal S100000 .f32)
        (broadcastInDim S100000 ![] bcast_S_S100000 (id (Vv (Proc.devRef .tc main_cst_4) : FVec Ideal S_ .f32))) := by
  after_results; rfl
set_option maxHeartbeats 4000000 in
/-- The third stretch: the edge coefficients as a column, from the edge list and the inverse square roots. -/
theorem norm_v38 : StableHlo.after (hostOps0_2 (F := Ideal)) Vv (Proc.devRef .tc main_v38)
    = normOf (Vv (Proc.devRef .tc main_v21)) (Vv (Proc.devRef .tc main_v10)) (Vv (Proc.devRef .tc main_v12)) (Vv (Proc.devRef .tc main_v14)) := by
  after_results_simp
  rfl
/-- Between launches 0 and 1: the transformed rows gathered at the edges' source nodes. -/
theorem gath_v47 : StableHlo.after (hostOps1 (F := Ideal)) Vv (Proc.devRef .tc main_v47)
    = Host.gather gather_S100000x64_S1703936x1_S1703936x64_1_0_n_n_0_1_164 (Vv (Proc.devRef .tc main_v40) : FVec Ideal S100000x64 .f32) (sel (Vv (Proc.devRef .tc main_v10))) := by
  after_results; rfl
/-- Between launches 1 and 2: the messages scattered onto their target nodes, and the bias as a row. -/
theorem scat_v51 : StableHlo.after (hostOps2 (F := Ideal)) Vv (Proc.devRef .tc main_v51)
    = Host.scatterAdd (F := Ideal) scatter_S100000x64_S1703936x1_S1703936x64_1_0_0_1
        (broadcastInDim S100000x64 ![] bcast_S_S100000x64 (constant (F := Ideal) S_ .f32 0x00000000#32))
        (col (Vv (Proc.devRef .tc main_v12))) (Vv (Proc.devRef .tc main_v48) : FVec Ideal S1703936x64 .f32) := by
  after_results; rfl
theorem bias_v52 : StableHlo.after (hostOps2 (F := Ideal)) Vv (Proc.devRef .tc main_v52) = b1row (Vv (Proc.devRef .tc main_arg4)) := by
  after_results; rfl
/-- Between launches 2 and 3: the second layer's transformed rows gathered at the source nodes. -/
theorem gath_v60 : StableHlo.after (hostOps3 (F := Ideal)) Vv (Proc.devRef .tc main_v60)
    = Host.gather gather_S100000x40_S1703936x1_S1703936x40_1_0_n_n_0_1_140 (Vv (Proc.devRef .tc main_v53) : FVec Ideal S100000x40 .f32) (sel (Vv (Proc.devRef .tc main_v10))) := by
  after_results; rfl
/-- After launch 3: the second layer's messages scattered onto their target nodes, plus the output bias. -/
theorem tail_v67 : StableHlo.after (hostOps4 (F := Ideal)) Vv (Proc.devRef .tc main_v67)
    = addf (F := Ideal) (Host.scatterAdd (F := Ideal) scatter_S100000x40_S1703936x1_S1703936x40_1_0_0_1
        (broadcastInDim S100000x40 ![] bcast_S_S100000x40 (constant (F := Ideal) S_ .f32 0x00000000#32))
        (col (Vv (Proc.devRef .tc main_v12))) (Vv (Proc.devRef .tc main_v61) : FVec Ideal S1703936x40 .f32))
      (broadcastInDim S100000x40 ![0, 1] bcast_S1x40_S100000x40_0_1 (broadcastInDim S1x40 ![1] bcast_S40_S1x40_1 (Vv (Proc.devRef .tc main_arg6) : FVec Ideal S40 .f32))) := by
  after_results; rfl

end Stretches

/-! ## The run's boundaries -/

variable (m : (ℓ : Loc nD τ sig) → Buf (Elt Ideal) ℓ) (ρ : Dev nD → PrngReg) (c : Dev nD)

/-- The argument arrays as launched. -/
abbrev a0 : A0 := m ((c.tc : Thread nD τ).loc main_arg0)
abbrev a1 : A1 := m ((c.tc : Thread nD τ).loc main_arg1)
abbrev a2 : A2 := m ((c.tc : Thread nD τ).loc main_arg2)
abbrev a3 : A3 := m ((c.tc : Thread nD τ).loc main_arg3)
abbrev a4 : A4 := m ((c.tc : Thread nD τ).loc main_arg4)
abbrev a5 : A5 := m ((c.tc : Thread nD τ).loc main_arg5)
abbrev a6 : A6 := m ((c.tc : Thread nD τ).loc main_arg6)

/-! ### At launch 0's entry (after the three opening stretches) -/

theorem W3_arg (b : Ref sig .tc) (h0 : ∀ op ∈ (hostOps0 (F := Ideal)), Proc.devRef (τ := τ) .tc b ∉ op.writes)
    (h1 : ∀ op ∈ (hostOps0_1 (F := Ideal)), Proc.devRef (τ := τ) .tc b ∉ op.writes)
    (h2 : ∀ op ∈ (hostOps0_2 (F := Ideal)), Proc.devRef (τ := τ) .tc b ∉ op.writes) :
    W3 m ρ c (Proc.devRef .tc b) = W0 m ρ c (Proc.devRef .tc b) :=
  (StableHlo.after_of_forall_not_mem _ _ h2).trans ((StableHlo.after_of_forall_not_mem _ _ h1).trans (StableHlo.after_of_forall_not_mem _ _ h0))

theorem W3_arg0 : W3 m ρ c (Proc.devRef .tc main_arg0) = a0 m c :=
  calc W3 m ρ c (Proc.devRef .tc main_arg0)
    _ = W2 m ρ c (Proc.devRef .tc main_arg0) := by host_keeps hostOps0_2
    _ = W1 m ρ c (Proc.devRef .tc main_arg0) := by host_keeps hostOps0_1
    _ = W0 m ρ c (Proc.devRef .tc main_arg0) := by host_keeps hostOps0
    _ = a0 m c := rfl
theorem W3_arg3 : W3 m ρ c (Proc.devRef .tc main_arg3) = a3 m c :=
  calc W3 m ρ c (Proc.devRef .tc main_arg3)
    _ = W2 m ρ c (Proc.devRef .tc main_arg3) := by host_keeps hostOps0_2
    _ = W1 m ρ c (Proc.devRef .tc main_arg3) := by host_keeps hostOps0_1
    _ = W0 m ρ c (Proc.devRef .tc main_arg3) := by host_keeps hostOps0
    _ = a3 m c := rfl
theorem W3_arg4 : W3 m ρ c (Proc.devRef .tc main_arg4) = a4 m c :=
  calc W3 m ρ c (Proc.devRef .tc main_arg4)
    _ = W2 m ρ c (Proc.devRef .tc main_arg4) := by host_keeps hostOps0_2
    _ = W1 m ρ c (Proc.devRef .tc main_arg4) := by host_keeps hostOps0_1
    _ = W0 m ρ c (Proc.devRef .tc main_arg4) := by host_keeps hostOps0
    _ = a4 m c := rfl
theorem W3_arg5 : W3 m ρ c (Proc.devRef .tc main_arg5) = a5 m c :=
  calc W3 m ρ c (Proc.devRef .tc main_arg5)
    _ = W2 m ρ c (Proc.devRef .tc main_arg5) := by host_keeps hostOps0_2
    _ = W1 m ρ c (Proc.devRef .tc main_arg5) := by host_keeps hostOps0_1
    _ = W0 m ρ c (Proc.devRef .tc main_arg5) := by host_keeps hostOps0
    _ = a5 m c := rfl
theorem W3_arg6 : W3 m ρ c (Proc.devRef .tc main_arg6) = a6 m c :=
  calc W3 m ρ c (Proc.devRef .tc main_arg6)
    _ = W2 m ρ c (Proc.devRef .tc main_arg6) := by host_keeps hostOps0_2
    _ = W1 m ρ c (Proc.devRef .tc main_arg6) := by host_keeps hostOps0_1
    _ = W0 m ρ c (Proc.devRef .tc main_arg6) := by host_keeps hostOps0
    _ = a6 m c := rfl

theorem W2_v10 : W2 m ρ c (Proc.devRef .tc main_v10) = ksrc (a1 m c) :=
  calc W2 m ρ c (Proc.devRef .tc main_v10)
    _ = W1 m ρ c (Proc.devRef .tc main_v10) := by host_keeps hostOps0_1
    _ = ksrc (a1 m c) := pre_v10 (W0 m ρ c)
theorem W2_v12 : W2 m ρ c (Proc.devRef .tc main_v12) = kdst (a1 m c) :=
  calc W2 m ρ c (Proc.devRef .tc main_v12)
    _ = W1 m ρ c (Proc.devRef .tc main_v12) := by host_keeps hostOps0_1
    _ = kdst (a1 m c) := pre_v12 (W0 m ρ c)
theorem W2_v14 : W2 m ρ c (Proc.devRef .tc main_v14) = kew (a2 m c) :=
  calc W2 m ρ c (Proc.devRef .tc main_v14)
    _ = W1 m ρ c (Proc.devRef .tc main_v14) := by host_keeps hostOps0_1
    _ = kew (a2 m c) := pre_v14 (W0 m ρ c)
theorem W2_v21 : W2 m ρ c (Proc.devRef .tc main_v21) = dinvOf (kdeg (a1 m c) (a2 m c)) := by
  refine (call_v21 (W1 m ρ c)).trans ?_
  rw [show W1 m ρ c (Proc.devRef .tc main_v19) = _ from pre_v19 (W0 m ρ c), show W1 m ρ c (Proc.devRef .tc main_v20) = _ from pre_v20 (W0 m ρ c),
    show W1 m ρ c (Proc.devRef .tc main_cst_4) = _ from pre_cst4 (W0 m ρ c)]
  rfl

theorem W3_v10 : W3 m ρ c (Proc.devRef .tc main_v10) = ksrc (a1 m c) :=
  calc W3 m ρ c (Proc.devRef .tc main_v10)
    _ = W2 m ρ c (Proc.devRef .tc main_v10) := by host_keeps hostOps0_2
    _ = ksrc (a1 m c) := W2_v10 m ρ c
theorem W3_v12 : W3 m ρ c (Proc.devRef .tc main_v12) = kdst (a1 m c) :=
  calc W3 m ρ c (Proc.devRef .tc main_v12)
    _ = W2 m ρ c (Proc.devRef .tc main_v12) := by host_keeps hostOps0_2
    _ = kdst (a1 m c) := W2_v12 m ρ c
theorem W3_v38 : W3 m ρ c (Proc.devRef .tc main_v38) = knorm2d (a1 m c) (a2 m c) := by
  refine (norm_v38 (W2 m ρ c)).trans ?_
  rw [W2_v21, W2_v10, W2_v12, W2_v14]
  rfl

/-! ### Across launch 0: its output is x · W1; the edge list, the coefficients and the later arguments are untouched -/

theorem W4_v40 : W4 m ρ c (Proc.devRef .tc main_v40) = xl1 (a0 m c) (a3 m c) := by
  refine (W4_arr m ρ c 3).trans ((linear64_arr (V3 m ρ) c).trans ?_)
  rw [show V3 m ρ c main_arg0 = a0 m c from W3_arg0 m ρ c, show V3 m ρ c main_arg3 = a3 m c from W3_arg3 m ρ c]
  rfl
theorem W4_v10 : W4 m ρ c (Proc.devRef .tc main_v10) = ksrc (a1 m c) := (W4_of_ne m ρ c main_v10 (by decide)).trans (W3_v10 m ρ c)
theorem W4_v12 : W4 m ρ c (Proc.devRef .tc main_v12) = kdst (a1 m c) := (W4_of_ne m ρ c main_v12 (by decide)).trans (W3_v12 m ρ c)
theorem W4_v38 : W4 m ρ c (Proc.devRef .tc main_v38) = knorm2d (a1 m c) (a2 m c) := (W4_of_ne m ρ c main_v38 (by decide)).trans (W3_v38 m ρ c)
theorem W4_arg4 : W4 m ρ c (Proc.devRef .tc main_arg4) = a4 m c := (W4_of_ne m ρ c main_arg4 (by decide)).trans (W3_arg4 m ρ c)
theorem W4_arg5 : W4 m ρ c (Proc.devRef .tc main_arg5) = a5 m c := (W4_of_ne m ρ c main_arg5 (by decide)).trans (W3_arg5 m ρ c)
theorem W4_arg6 : W4 m ρ c (Proc.devRef .tc main_arg6) = a6 m c := (W4_of_ne m ρ c main_arg6 (by decide)).trans (W3_arg6 m ρ c)

/-! ### The stretch before launch 1: the rows of x · W1 gathered at the source nodes -/

theorem W5_v47 : W5 m ρ c (Proc.devRef .tc main_v47)
    = Host.gather gather_S100000x64_S1703936x1_S1703936x64_1_0_n_n_0_1_164 (xl1 (a0 m c) (a3 m c)) (sel (ksrc (a1 m c))) := by
  refine (gath_v47 (W4 m ρ c)).trans ?_
  rw [W4_v40, W4_v10]
theorem W5_v10 : W5 m ρ c (Proc.devRef .tc main_v10) = ksrc (a1 m c) :=
  (show W5 m ρ c (Proc.devRef .tc main_v10) = W4 m ρ c (Proc.devRef .tc main_v10) by host_keeps hostOps1).trans (W4_v10 m ρ c)
theorem W5_v12 : W5 m ρ c (Proc.devRef .tc main_v12) = kdst (a1 m c) :=
  (show W5 m ρ c (Proc.devRef .tc main_v12) = W4 m ρ c (Proc.devRef .tc main_v12) by host_keeps hostOps1).trans (W4_v12 m ρ c)
theorem W5_v38 : W5 m ρ c (Proc.devRef .tc main_v38) = knorm2d (a1 m c) (a2 m c) :=
  (show W5 m ρ c (Proc.devRef .tc main_v38) = W4 m ρ c (Proc.devRef .tc main_v38) by host_keeps hostOps1).trans (W4_v38 m ρ c)
theorem W5_arg4 : W5 m ρ c (Proc.devRef .tc main_arg4) = a4 m c :=
  (show W5 m ρ c (Proc.devRef .tc main_arg4) = W4 m ρ c (Proc.devRef .tc main_arg4) by host_keeps hostOps1).trans (W4_arg4 m ρ c)
theorem W5_arg5 : W5 m ρ c (Proc.devRef .tc main_arg5) = a5 m c :=
  (show W5 m ρ c (Proc.devRef .tc main_arg5) = W4 m ρ c (Proc.devRef .tc main_arg5) by host_keeps hostOps1).trans (W4_arg5 m ρ c)
theorem W5_arg6 : W5 m ρ c (Proc.devRef .tc main_arg6) = a6 m c :=
  (show W5 m ρ c (Proc.devRef .tc main_arg6) = W4 m ρ c (Proc.devRef .tc main_arg6) by host_keeps hostOps1).trans (W4_arg6 m ρ c)

/-! ### Across launch 1: its output is layer 1's messages; the coefficient column is one of its inputs and is left as entered -/

theorem W6_v48 : W6 m ρ c (Proc.devRef .tc main_v48) = msg1 (a0 m c) (a1 m c) (a2 m c) (a3 m c) := by
  refine (W6_arr m ρ c 2).trans ((scale64_arr (V5 m ρ) c).trans ?_)
  rw [show V5 m ρ c main_v47 = _ from W5_v47 m ρ c, show V5 m ρ c main_v38 = _ from W5_v38 m ρ c]
  rfl
theorem W6_v38 : W6 m ρ c (Proc.devRef .tc main_v38) = knorm2d (a1 m c) (a2 m c) :=
  ((W6_arr m ρ c 1).trans (((dat1 (V5 m ρ) c).arrAt_in 1 rfl _).trans (A_eq1 (V5 m ρ) c 1))).trans (W5_v38 m ρ c)
theorem W6_v10 : W6 m ρ c (Proc.devRef .tc main_v10) = ksrc (a1 m c) := (W6_of_ne m ρ c main_v10 (by decide)).trans (W5_v10 m ρ c)
theorem W6_v12 : W6 m ρ c (Proc.devRef .tc main_v12) = kdst (a1 m c) := (W6_of_ne m ρ c main_v12 (by decide)).trans (W5_v12 m ρ c)
theorem W6_arg4 : W6 m ρ c (Proc.devRef .tc main_arg4) = a4 m c := (W6_of_ne m ρ c main_arg4 (by decide)).trans (W5_arg4 m ρ c)
theorem W6_arg5 : W6 m ρ c (Proc.devRef .tc main_arg5) = a5 m c := (W6_of_ne m ρ c main_arg5 (by decide)).trans (W5_arg5 m ρ c)
theorem W6_arg6 : W6 m ρ c (Proc.devRef .tc main_arg6) = a6 m c := (W6_of_ne m ρ c main_arg6 (by decide)).trans (W5_arg6 m ρ c)

/-! ### The stretch before launch 2: layer 1's aggregation, and the hidden bias as a row -/

theorem W7_v51 : W7 m ρ c (Proc.devRef .tc main_v51) = out1 (a0 m c) (a1 m c) (a2 m c) (a3 m c) := by
  refine (scat_v51 (W6 m ρ c)).trans ?_
  rw [W6_v12, W6_v48]
  rfl
theorem W7_v52 : W7 m ρ c (Proc.devRef .tc main_v52) = b1row (a4 m c) := by
  refine (bias_v52 (W6 m ρ c)).trans ?_
  rw [W6_arg4]
theorem W7_v10 : W7 m ρ c (Proc.devRef .tc main_v10) = ksrc (a1 m c) :=
  (show W7 m ρ c (Proc.devRef .tc main_v10) = W6 m ρ c (Proc.devRef .tc main_v10) by host_keeps hostOps2).trans (W6_v10 m ρ c)
theorem W7_v12 : W7 m ρ c (Proc.devRef .tc main_v12) = kdst (a1 m c) :=
  (show W7 m ρ c (Proc.devRef .tc main_v12) = W6 m ρ c (Proc.devRef .tc main_v12) by host_keeps hostOps2).trans (W6_v12 m ρ c)
theorem W7_v38 : W7 m ρ c (Proc.devRef .tc main_v38) = knorm2d (a1 m c) (a2 m c) :=
  (show W7 m ρ c (Proc.devRef .tc main_v38) = W6 m ρ c (Proc.devRef .tc main_v38) by host_keeps hostOps2).trans (W6_v38 m ρ c)
theorem W7_arg5 : W7 m ρ c (Proc.devRef .tc main_arg5) = a5 m c :=
  (show W7 m ρ c (Proc.devRef .tc main_arg5) = W6 m ρ c (Proc.devRef .tc main_arg5) by host_keeps hostOps2).trans (W6_arg5 m ρ c)
theorem W7_arg6 : W7 m ρ c (Proc.devRef .tc main_arg6) = a6 m c :=
  (show W7 m ρ c (Proc.devRef .tc main_arg6) = W6 m ρ c (Proc.devRef .tc main_arg6) by host_keeps hostOps2).trans (W6_arg6 m ρ c)

/-! ### Across launch 2: its output is relu(out1 + b1) · W2 -/

theorem W8_v53 : W8 m ρ c (Proc.devRef .tc main_v53) = xl2 (a0 m c) (a1 m c) (a2 m c) (a3 m c) (a4 m c) (a5 m c) := by
  refine (W8_arr m ρ c 3).trans ((linear40_arr (V7 m ρ) c).trans ?_)
  rw [show V7 m ρ c main_v51 = _ from W7_v51 m ρ c, show V7 m ρ c main_v52 = _ from W7_v52 m ρ c,
    show V7 m ρ c main_arg5 = _ from W7_arg5 m ρ c]
  rfl
theorem W8_v10 : W8 m ρ c (Proc.devRef .tc main_v10) = ksrc (a1 m c) := (W8_of_ne m ρ c main_v10 (by decide)).trans (W7_v10 m ρ c)
theorem W8_v12 : W8 m ρ c (Proc.devRef .tc main_v12) = kdst (a1 m c) := (W8_of_ne m ρ c main_v12 (by decide)).trans (W7_v12 m ρ c)
theorem W8_v38 : W8 m ρ c (Proc.devRef .tc main_v38) = knorm2d (a1 m c) (a2 m c) := (W8_of_ne m ρ c main_v38 (by decide)).trans (W7_v38 m ρ c)
theorem W8_arg6 : W8 m ρ c (Proc.devRef .tc main_arg6) = a6 m c := (W8_of_ne m ρ c main_arg6 (by decide)).trans (W7_arg6 m ρ c)

/-! ### The stretch before launch 3: layer 2's rows gathered at the source nodes -/

theorem W9_v60 : W9 m ρ c (Proc.devRef .tc main_v60)
    = Host.gather gather_S100000x40_S1703936x1_S1703936x40_1_0_n_n_0_1_140
        (xl2 (a0 m c) (a1 m c) (a2 m c) (a3 m c) (a4 m c) (a5 m c)) (sel (ksrc (a1 m c))) := by
  refine (gath_v60 (W8 m ρ c)).trans ?_
  rw [W8_v53, W8_v10]
theorem W9_v12 : W9 m ρ c (Proc.devRef .tc main_v12) = kdst (a1 m c) :=
  (show W9 m ρ c (Proc.devRef .tc main_v12) = W8 m ρ c (Proc.devRef .tc main_v12) by host_keeps hostOps3).trans (W8_v12 m ρ c)
theorem W9_v38 : W9 m ρ c (Proc.devRef .tc main_v38) = knorm2d (a1 m c) (a2 m c) :=
  (show W9 m ρ c (Proc.devRef .tc main_v38) = W8 m ρ c (Proc.devRef .tc main_v38) by host_keeps hostOps3).trans (W8_v38 m ρ c)
theorem W9_arg6 : W9 m ρ c (Proc.devRef .tc main_arg6) = a6 m c :=
  (show W9 m ρ c (Proc.devRef .tc main_arg6) = W8 m ρ c (Proc.devRef .tc main_arg6) by host_keeps hostOps3).trans (W8_arg6 m ρ c)

/-! ### Across launch 3: its output is layer 2's messages -/

theorem W10_v61 : W10 m ρ c (Proc.devRef .tc main_v61) = msg2 (a0 m c) (a1 m c) (a2 m c) (a3 m c) (a4 m c) (a5 m c) := by
  refine (W10_arr m ρ c 2).trans ((scale40_arr (V9 m ρ) c).trans ?_)
  rw [show V9 m ρ c main_v60 = _ from W9_v60 m ρ c, show V9 m ρ c main_v38 = _ from W9_v38 m ρ c]
  rfl
theorem W10_v12 : W10 m ρ c (Proc.devRef .tc main_v12) = kdst (a1 m c) := (W10_of_ne m ρ c main_v12 (by decide)).trans (W9_v12 m ρ c)
theorem W10_arg6 : W10 m ρ c (Proc.devRef .tc main_arg6) = a6 m c := (W10_of_ne m ρ c main_arg6 (by decide)).trans (W9_arg6 m ρ c)

/-! ### The closing stretch -/

/-- THE RESULT BUFFER after the whole program holds the staged value of the launch arguments. -/
theorem result_eq : W11 m ρ c (Proc.devRef .tc main_v67)
    = result (a0 m c) (a1 m c) (a2 m c) (a3 m c) (a4 m c) (a5 m c) (a6 m c) := by
  refine (tail_v67 (W10 m ρ c)).trans ?_
  rw [W10_v12, W10_v61, W10_arg6]
  rfl

end Cert.KernelIdeal.Fold

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibCountScatter.lean ====
/-
  Counting by scatter: a row-indexed count and a column count agree.

  Two ways to count, for each row r < n, the updates q < e whose index word reads r. One accumulates updates of
  shape [e] into an operand of shape [n] (no window axis); the other accumulates updates of shape [e, 1] into an
  operand of shape [n, 1] (a window axis of extent one). Both read the landing row, signed and unclamped, from
  column 0 of the same [e, 1] index array, and both drop an update whose row falls outside [0, n).

  On the extended reals the accumulating scatter is the operand entry plus the sum of the updates landing on it, so
  it suffices that update q lands on r in one exactly when (q, 0) lands on (r, 0) in the other: the extra axis
  contributes start 0 and window coordinate 0, always in range. The sums then run over corresponding index sets
  (q ↦ (q, 0) is a bijection of [e] with [e, 1]) with equal terms. Only re-indexing of a finite sum is used; nothing
  needs the entries to be finite.
-/
import Idealize.ShloMosaic.Lib.ValueIdx
import Idealize.ShloMosaic.PureOps.Ideal.Laws

noncomputable section

namespace Cert.LibCountScatter

open Idealize.ShloMosaic Idealize.ShloMosaic.ValueIdx

variable {n e w : ℕ}

/-- The record of the row-indexed scatter: updates [e] into an operand [n], the row read off index column 0. -/
abbrev dRow (wf : ScatterDims.WF ⟨1, ![n]⟩ ⟨2, ![e, 1]⟩ ⟨1, ![e]⟩ [] [0] [0] 1) :
    ScatterDims ⟨1, ![n]⟩ ⟨2, ![e, 1]⟩ ⟨1, ![e]⟩ := ⟨[], [0], [0], 1, wf⟩

/-- The record of the column scatter: updates [e, 1] into an operand [n, 1], axis 1 a window axis of extent one. -/
abbrev dCol (wf : ScatterDims.WF ⟨2, ![n, 1]⟩ ⟨2, ![e, 1]⟩ ⟨2, ![e, 1]⟩ [1] [0] [0] 1) :
    ScatterDims ⟨2, ![n, 1]⟩ ⟨2, ![e, 1]⟩ ⟨2, ![e, 1]⟩ := ⟨[1], [0], [0], 1, wf⟩

/-- The row record's start on axis 0 is the index word of update q. -/
theorem row_start (wf) (idx : IVec ⟨2, ![e, 1]⟩ w) (q : Fin e) :
    (dRow (n := n) wf).start (ix1 q) idx 0 = (idx (ix2 q (0 : Fin 1))).toInt := by
  unfold ScatterDims.start
  rw [dif_pos (show (0 : Fin 1) ∈ ([0] : List (Fin 1)) by decide)]
  congr 2
  funext b
  match b with
  | ⟨0, _⟩ => rfl
  | ⟨1, _⟩ => rfl

/-- The row record has no window axis: the window coordinate is 0. -/
theorem row_window (wf) (q : Fin e) : (dRow (n := n) wf).window (ix1 q) 0 = 0 := by
  unfold ScatterDims.window
  have h : (0 : Fin 1) ∉ (dRow (n := n) (e := e) wf).sKept := by
    show (0 : Fin 1) ∉ ((List.finRange 1).filter (· ∉ ([0] : List (Fin 1)))); decide
  rw [dif_neg h]

/-- The column record's start on axis 0 is the same index word. -/
theorem col_start0 (wf) (idx : IVec ⟨2, ![e, 1]⟩ w) (q : Fin e) :
    (dCol (n := n) wf).start (ix2 q (0 : Fin 1)) idx 0 = (idx (ix2 q (0 : Fin 1))).toInt := by
  unfold ScatterDims.start
  rw [dif_pos (show (0 : Fin 2) ∈ ([0] : List (Fin 2)) by decide)]
  congr 2
  funext b
  match b with
  | ⟨0, _⟩ => rfl
  | ⟨1, _⟩ => rfl

/-- Axis 1 is not named by the index vector: its start is 0. -/
theorem col_start1 (wf) (idx : IVec ⟨2, ![e, 1]⟩ w) (q : Fin e) :
    (dCol (n := n) wf).start (ix2 q (0 : Fin 1)) idx 1 = 0 := by
  unfold ScatterDims.start
  rw [dif_neg (show (1 : Fin 2) ∉ ([0] : List (Fin 2)) by decide)]

/-- Axis 0 is an inserted axis: no window coordinate. -/
theorem col_window0 (wf) (q : Fin e) : (dCol (n := n) wf).window (ix2 q (0 : Fin 1)) 0 = 0 := by
  unfold ScatterDims.window
  have h : (0 : Fin 2) ∉ (dCol (n := n) (e := e) wf).sKept := by
    show (0 : Fin 2) ∉ ((List.finRange 2).filter (· ∉ ([0] : List (Fin 2)))); decide
  rw [dif_neg h]

/-- Axis 1's window coordinate is the update's coordinate on its unit axis, which is 0. -/
theorem col_window1 (wf) (q : Fin e) : (dCol (n := n) wf).window (ix2 q (0 : Fin 1)) 1 = 0 := by
  unfold ScatterDims.window
  have h : (1 : Fin 2) ∈ (dCol (n := n) (e := e) wf).sKept := by
    show (1 : Fin 2) ∈ ((List.finRange 2).filter (· ∉ ([0] : List (Fin 2)))); decide
  rw [dif_pos h]
  rfl

/-- A row update lands on row r exactly when its index word reads r. -/
theorem row_lands (wf) (idx : IVec ⟨2, ![e, 1]⟩ w) (q : Fin e) (r : Fin n) :
    (dRow (n := n) wf).resultIdx? (ix1 q) idx = some (ix1 r) ↔ (idx (ix2 q (0 : Fin 1))).toInt = (r.val : Int) := by
  unfold ScatterDims.resultIdx?
  split
  · rename_i h
    rw [Option.some.injEq]
    have h0 := h 0
    rw [row_start, row_window] at h0
    constructor
    · intro heq
      have hv : ((dRow (n := n) wf).start (ix1 q) idx 0 + ((dRow (n := n) wf).window (ix1 q) 0 : ℕ)).toNat = r.val :=
        congrArg (fun f : (⟨1, ![n]⟩ : Shape).Idx => (f 0).val) heq
      rw [row_start, row_window] at hv
      omega
    · intro heq
      funext a
      match a with
      | ⟨0, _⟩ =>
        apply Fin.ext
        show ((dRow (n := n) wf).start (ix1 q) idx 0 + ((dRow (n := n) wf).window (ix1 q) 0 : ℕ)).toNat = r.val
        rw [row_start, row_window, heq]
        omega
  · rename_i h
    constructor
    · intro hh; cases hh
    · intro heq
      exfalso
      apply h
      intro a
      match a with
      | ⟨0, _⟩ =>
        show 0 ≤ (dRow (n := n) wf).start (ix1 q) idx 0 + ((dRow (n := n) wf).window (ix1 q) 0 : ℕ)
          ∧ (dRow (n := n) wf).start (ix1 q) idx 0 + ((dRow (n := n) wf).window (ix1 q) 0 : ℕ) < (n : ℤ)
        rw [row_start, row_window, heq]
        have := r.isLt
        omega

/-- A column update lands on (r, 0) exactly when its index word reads r. -/
theorem col_lands (wf) (idx : IVec ⟨2, ![e, 1]⟩ w) (q : Fin e) (r : Fin n) :
    (dCol (n := n) wf).resultIdx? (ix2 q (0 : Fin 1)) idx = some (ix2 r (0 : Fin 1))
      ↔ (idx (ix2 q (0 : Fin 1))).toInt = (r.val : Int) := by
  unfold ScatterDims.resultIdx?
  split
  · rename_i h
    rw [Option.some.injEq]
    have h0 := h 0
    rw [col_start0, col_window0] at h0
    constructor
    · intro heq
      have hv : ((dCol (n := n) wf).start (ix2 q (0 : Fin 1)) idx 0 + ((dCol (n := n) wf).window (ix2 q (0 : Fin 1)) 0 : ℕ)).toNat = r.val :=
        congrArg (fun f : (⟨2, ![n, 1]⟩ : Shape).Idx => (f 0).val) heq
      rw [col_start0, col_window0] at hv
      omega
    · intro heq
      funext a
      match a with
      | ⟨0, _⟩ =>
        apply Fin.ext
        show ((dCol (n := n) wf).start (ix2 q (0 : Fin 1)) idx 0 + ((dCol (n := n) wf).window (ix2 q (0 : Fin 1)) 0 : ℕ)).toNat = r.val
        rw [col_start0, col_window0, heq]
        omega
      | ⟨1, _⟩ =>
        apply Fin.ext
        show ((dCol (n := n) wf).start (ix2 q (0 : Fin 1)) idx 1 + ((dCol (n := n) wf).window (ix2 q (0 : Fin 1)) 1 : ℕ)).toNat = 0
        rw [col_start1, col_window1]
        rfl
  · rename_i h
    constructor
    · intro hh; cases hh
    · intro heq
      exfalso
      apply h
      intro a
      match a with
      | ⟨0, _⟩ =>
        show 0 ≤ (dCol (n := n) wf).start (ix2 q (0 : Fin 1)) idx 0 + ((dCol (n := n) wf).window (ix2 q (0 : Fin 1)) 0 : ℕ)
          ∧ (dCol (n := n) wf).start (ix2 q (0 : Fin 1)) idx 0 + ((dCol (n := n) wf).window (ix2 q (0 : Fin 1)) 0 : ℕ) < (n : ℤ)
        rw [col_start0, col_window0, heq]
        have := r.isLt
        omega
      | ⟨1, _⟩ =>
        show 0 ≤ (dCol (n := n) wf).start (ix2 q (0 : Fin 1)) idx 1 + ((dCol (n := n) wf).window (ix2 q (0 : Fin 1)) 1 : ℕ)
          ∧ (dCol (n := n) wf).start (ix2 q (0 : Fin 1)) idx 1 + ((dCol (n := n) wf).window (ix2 q (0 : Fin 1)) 1 : ℕ) < ((1 : ℕ) : ℤ)
        rw [col_start1, col_window1]
        omega

/-- The update indices [e] and [e, 1] correspond: q and (q, 0). -/
def liftIdx : (⟨1, ![e]⟩ : Shape).Idx ≃ (⟨2, ![e, 1]⟩ : Shape).Idx where
  toFun j := ix2 (j 0) (0 : Fin 1)
  invFun k := ix1 (k 0)
  left_inv j := (eq_ix1 j).symm
  right_inv k := by
    funext a
    match a with
    | ⟨0, _⟩ => rfl
    | ⟨1, _⟩ =>
      apply Fin.ext
      have h : (k 1).val < 1 := (k 1).isLt
      show 0 = (k 1).val
      omega

/-- An accumulating scatter of updates [e, 1] into a column [n, 1] and the same updates as [e] into a row-indexed [n],
    both reading the landing row off column 0 of one index array, agree entry by entry: update q lands on row r in one
    exactly when it does in the other, so the two sums run over corresponding index sets. No finiteness is used. -/
theorem scatterAdd_col_eq_row {φ : FTy}
    (d1 : ScatterDims ⟨1, ![n]⟩ ⟨2, ![e, 1]⟩ ⟨1, ![e]⟩) (d2 : ScatterDims ⟨2, ![n, 1]⟩ ⟨2, ![e, 1]⟩ ⟨2, ![e, 1]⟩)
    (wf1) (wf2) (h1 : d1 = ⟨[], [0], [0], 1, wf1⟩) (h2 : d2 = ⟨[1], [0], [0], 1, wf2⟩)
    (x1 : FVec Ideal ⟨1, ![n]⟩ φ) (x2 : FVec Ideal ⟨2, ![n, 1]⟩ φ) (idx : IVec ⟨2, ![e, 1]⟩ w)
    (u1 : FVec Ideal ⟨1, ![e]⟩ φ) (u2 : FVec Ideal ⟨2, ![e, 1]⟩ φ) (r : Fin n)
    (hx : x2 (ix2 r (0 : Fin 1)) = x1 (ix1 r)) (hu : ∀ q : Fin e, u2 (ix2 q (0 : Fin 1)) = u1 (ix1 q)) :
    Host.scatterAdd d2 x2 idx u2 (ix2 r (0 : Fin 1)) = Host.scatterAdd d1 x1 idx u1 (ix1 r) := by
  subst h1 h2
  show x2 (ix2 r (0 : Fin 1)) + _ = x1 (ix1 r) + _
  rw [hx]
  congr 1
  symm
  refine Finset.sum_equiv liftIdx (fun j => ?_) (fun j _ => ?_)
  · obtain ⟨q, rfl⟩ : ∃ q : Fin e, j = ix1 q := ⟨j 0, eq_ix1 j⟩
    rw [Finset.mem_filter, Finset.mem_filter]
    simp only [Finset.mem_univ, true_and]
    exact (row_lands wf1 idx q r).trans (col_lands wf2 idx q r).symm
  · obtain ⟨q, rfl⟩ : ∃ q : Fin e, j = ix1 q := ⟨j 0, eq_ix1 j⟩
    exact (hu q).symm

end Cert.LibCountScatter

end
-- ==== Proof.LibPaddedScatter.lean ====
/-
  An accumulating scatter does not see rows of zeros appended to its updates.

  On the extended reals the host's accumulating scatter gives, at each operand index i, the operand entry plus the
  sum of the update entries landing on i. Take an update array with T rows whose first E ≤ T rows are a given update
  array with E rows and whose remaining T − E rows are all zero, and an index column with T entries whose first E
  entries are the index column of the short array. Then the long scatter and the short scatter into one operand agree:
  wherever a row of zeros lands, or whether it lands at all, it adds 0, and x + 0 = x. Nothing needs the entries to
  be finite: the extended reals are a commutative additive monoid, and only a finite sum is split into the part over
  the first E rows, re-indexed, and the rest, every term of which is 0.

  Two shapes are covered, for ANY extents: element updates [T] into an operand [N] (no window axis), and row updates
  [T, C] into an operand [N, C] (axis 1 the one window axis). Both read the landing row, signed and not clamped, off
  column 0 of a [T, 1] index array, and drop an update whose row leaves the operand. The landing condition of the
  first is that the index word reads the row; of the second, that the index word reads the row and the columns agree.
  No axis is enumerated: every step is over the variables N, E, T, C.
-/
import Idealize.ShloMosaic.Lib.ValueIdx
import Idealize.ShloMosaic.PureOps.Ideal.Laws
import proofs.«141327_j15882789060739_2_alg».proof.Proof.LibCountScatter

noncomputable section

namespace Cert.LibPaddedScatter

open Idealize.ShloMosaic Idealize.ShloMosaic.ValueIdx

/-- A filtered finite sum over a larger index set equals the filtered sum over a smaller one embedded in it, when the
    filters and the terms correspond along the embedding and every term off its image is zero. -/
theorem sum_filter_pad {α β M : Type*} [Fintype α] [Fintype β] [AddCommMonoid M] (ι : α ↪ β)
    (p : α → Prop) (q : β → Prop) [DecidablePred p] [DecidablePred q] (f : α → M) (g : β → M)
    (hq : ∀ a, q (ι a) ↔ p a) (hg : ∀ a, g (ι a) = f a) (h0 : ∀ b, b ∉ Set.range ι → g b = 0) :
    ∑ b ∈ Finset.univ.filter q, g b = ∑ a ∈ Finset.univ.filter p, f a := by
  have h1 : ∑ a ∈ Finset.univ.filter p, f a = ∑ b ∈ (Finset.univ.filter p).map ι, g b := by
    rw [Finset.sum_map]
    exact Finset.sum_congr rfl (fun a _ => (hg a).symm)
  rw [h1]
  symm
  apply Finset.sum_subset
  · intro b hb
    obtain ⟨a, ha, rfl⟩ := Finset.mem_map.mp hb
    rw [Finset.mem_filter] at ha ⊢
    exact ⟨Finset.mem_univ _, (hq a).mpr ha.2⟩
  · intro b hb hnb
    apply h0
    rintro ⟨a, rfl⟩
    apply hnb
    rw [Finset.mem_filter] at hb
    exact Finset.mem_map.mpr ⟨a, Finset.mem_filter.mpr ⟨Finset.mem_univ _, (hq a).mp hb.2⟩, rfl⟩

/-! ## Where a row update with one window axis lands -/

section RowsLands
variable {n e c w : ℕ}

/-- The record of the row scatter: updates [e, c] into an operand [n, c], the row read off index column 0, axis 1 the
    one window axis. -/
abbrev dRows (wf : ScatterDims.WF ⟨2, ![n, c]⟩ ⟨2, ![e, 1]⟩ ⟨2, ![e, c]⟩ [1] [0] [0] 1) :
    ScatterDims ⟨2, ![n, c]⟩ ⟨2, ![e, 1]⟩ ⟨2, ![e, c]⟩ := ⟨[1], [0], [0], 1, wf⟩

/-- The start on axis 0 is the index word of update row q. -/
theorem rows_start0 (wf) (idx : IVec ⟨2, ![e, 1]⟩ w) (q : Fin e) (k : Fin c) :
    (dRows (n := n) wf).start (ix2 q k) idx 0 = (idx (ix2 q (0 : Fin 1))).toInt := by
  unfold ScatterDims.start
  rw [dif_pos (show (0 : Fin 2) ∈ ([0] : List (Fin 2)) by decide)]
  congr 2
  funext b
  match b with
  | ⟨0, _⟩ => rfl
  | ⟨1, _⟩ => rfl

/-- Axis 1 is not named by the index vector: its start is 0. -/
theorem rows_start1 (wf) (idx : IVec ⟨2, ![e, 1]⟩ w) (q : Fin e) (k : Fin c) :
    (dRows (n := n) wf).start (ix2 q k) idx 1 = 0 := by
  unfold ScatterDims.start
  rw [dif_neg (show (1 : Fin 2) ∉ ([0] : List (Fin 2)) by decide)]

/-- Axis 0 is an inserted axis: no window coordinate. -/
theorem rows_window0 (wf) (q : Fin e) (k : Fin c) : (dRows (n := n) wf).window (ix2 q k) 0 = 0 := by
  unfold ScatterDims.window
  have h : (0 : Fin 2) ∉ (dRows (n := n) (e := e) (c := c) wf).sKept := by
    show (0 : Fin 2) ∉ ((List.finRange 2).filter (· ∉ ([0] : List (Fin 2)))); decide
  rw [dif_neg h]

/-- Axis 1's window coordinate is the update's column. -/
theorem rows_window1 (wf) (q : Fin e) (k : Fin c) : (dRows (n := n) wf).window (ix2 q k) 1 = k.val := by
  unfold ScatterDims.window
  have h : (1 : Fin 2) ∈ (dRows (n := n) (e := e) (c := c) wf).sKept := by
    show (1 : Fin 2) ∈ ((List.finRange 2).filter (· ∉ ([0] : List (Fin 2)))); decide
  rw [dif_pos h]
  rfl

/-- Update (q, k) lands on (r, k') exactly when its index word reads r and the columns agree. -/
theorem rows_lands (wf) (idx : IVec ⟨2, ![e, 1]⟩ w) (q : Fin e) (k : Fin c) (r : Fin n) (k' : Fin c) :
    (dRows (n := n) wf).resultIdx? (ix2 q k) idx = some (ix2 r k')
      ↔ (idx (ix2 q (0 : Fin 1))).toInt = (r.val : Int) ∧ k = k' := by
  unfold ScatterDims.resultIdx?
  split
  · rename_i h
    rw [Option.some.injEq]
    have h0 := h 0
    rw [rows_start0, rows_window0] at h0
    constructor
    · intro heq
      have hv0 : ((dRows (n := n) wf).start (ix2 q k) idx 0 + ((dRows (n := n) wf).window (ix2 q k) 0 : ℕ)).toNat = r.val :=
        congrArg (fun f : (⟨2, ![n, c]⟩ : Shape).Idx => (f 0).val) heq
      have hv1 : ((dRows (n := n) wf).start (ix2 q k) idx 1 + ((dRows (n := n) wf).window (ix2 q k) 1 : ℕ)).toNat = k'.val :=
        congrArg (fun f : (⟨2, ![n, c]⟩ : Shape).Idx => (f 1).val) heq
      rw [rows_start0, rows_window0] at hv0
      rw [rows_start1, rows_window1] at hv1
      exact ⟨by omega, Fin.ext (by omega)⟩
    · rintro ⟨heq, rfl⟩
      funext a
      match a with
      | ⟨0, _⟩ =>
        apply Fin.ext
        show ((dRows (n := n) wf).start (ix2 q k) idx 0 + ((dRows (n := n) wf).window (ix2 q k) 0 : ℕ)).toNat = r.val
        rw [rows_start0, rows_window0, heq]
        omega
      | ⟨1, _⟩ =>
        apply Fin.ext
        show ((dRows (n := n) wf).start (ix2 q k) idx 1 + ((dRows (n := n) wf).window (ix2 q k) 1 : ℕ)).toNat = k.val
        rw [rows_start1, rows_window1]
        omega
  · rename_i h
    constructor
    · intro hh; cases hh
    · rintro ⟨heq, rfl⟩
      exfalso
      apply h
      intro a
      match a with
      | ⟨0, _⟩ =>
        show 0 ≤ (dRows (n := n) wf).start (ix2 q k) idx 0 + ((dRows (n := n) wf).window (ix2 q k) 0 : ℕ)
          ∧ (dRows (n := n) wf).start (ix2 q k) idx 0 + ((dRows (n := n) wf).window (ix2 q k) 0 : ℕ) < (n : ℤ)
        rw [rows_start0, rows_window0, heq]
        have := r.isLt
        omega
      | ⟨1, _⟩ =>
        show 0 ≤ (dRows (n := n) wf).start (ix2 q k) idx 1 + ((dRows (n := n) wf).window (ix2 q k) 1 : ℕ)
          ∧ (dRows (n := n) wf).start (ix2 q k) idx 1 + ((dRows (n := n) wf).window (ix2 q k) 1 : ℕ) < (c : ℤ)
        rw [rows_start1, rows_window1]
        have := k.isLt
        omega

end RowsLands

/-! ## The embeddings of the short update index sets into the long ones -/

/-- Element updates: q ↦ q, read as one of the first E of T rows. -/
def embElt {E T : ℕ} (hle : E ≤ T) : (⟨1, ![E]⟩ : Shape).Idx ↪ (⟨1, ![T]⟩ : Shape).Idx where
  toFun j := ix1 (Fin.castLE hle (j 0))
  inj' j j' h := by
    obtain ⟨q, rfl⟩ : ∃ q : Fin E, j = ix1 q := ⟨j 0, eq_ix1 j⟩
    obtain ⟨q', rfl⟩ : ∃ q' : Fin E, j' = ix1 q' := ⟨j' 0, eq_ix1 j'⟩
    have hv : (Fin.castLE hle q).val = (Fin.castLE hle q').val :=
      congrArg (fun f : (⟨1, ![T]⟩ : Shape).Idx => (f 0).val) h
    have : q = q' := Fin.ext hv
    rw [this]

/-- Row updates: (q, k) ↦ (q, k), the row read as one of the first E of T rows. -/
def embRow {E T C : ℕ} (hle : E ≤ T) : (⟨2, ![E, C]⟩ : Shape).Idx ↪ (⟨2, ![T, C]⟩ : Shape).Idx where
  toFun j := ix2 (Fin.castLE hle (j 0)) (j 1)
  inj' j j' h := by
    obtain ⟨q, k, rfl⟩ : ∃ (q : Fin E) (k : Fin C), j = ix2 q k := ⟨j 0, j 1, eq_ix2 j⟩
    obtain ⟨q', k', rfl⟩ : ∃ (q' : Fin E) (k' : Fin C), j' = ix2 q' k' := ⟨j' 0, j' 1, eq_ix2 j'⟩
    have hv : (Fin.castLE hle q).val = (Fin.castLE hle q').val :=
      congrArg (fun f : (⟨2, ![T, C]⟩ : Shape).Idx => (f 0).val) h
    have hk : k.val = k'.val := congrArg (fun f : (⟨2, ![T, C]⟩ : Shape).Idx => (f 1).val) h
    have h1 : q = q' := Fin.ext hv
    have h2 : k = k' := Fin.ext hk
    rw [h1, h2]

/-! ## The two scatters -/

/-- Element updates [T] whose first E entries are the updates [E] and whose other entries are zero, scattered through
    an index column whose first E entries are the short one's, give the short scatter. -/
theorem scatterAdd_elts_pad {N E T w : ℕ} {φ : FTy} (hle : E ≤ T)
    (dK : ScatterDims ⟨1, ![N]⟩ ⟨2, ![T, 1]⟩ ⟨1, ![T]⟩) (dR : ScatterDims ⟨1, ![N]⟩ ⟨2, ![E, 1]⟩ ⟨1, ![E]⟩)
    (wfK) (wfR) (hK : dK = ⟨[], [0], [0], 1, wfK⟩) (hR : dR = ⟨[], [0], [0], 1, wfR⟩)
    (x : FVec Ideal ⟨1, ![N]⟩ φ) (idxK : IVec ⟨2, ![T, 1]⟩ w) (idxR : IVec ⟨2, ![E, 1]⟩ w)
    (uK : FVec Ideal ⟨1, ![T]⟩ φ) (uR : FVec Ideal ⟨1, ![E]⟩ φ)
    (hidx : ∀ e : Fin E, idxK (ix2 (Fin.castLE hle e) (0 : Fin 1)) = idxR (ix2 e (0 : Fin 1)))
    (hu : ∀ e : Fin E, uK (ix1 (Fin.castLE hle e)) = uR (ix1 e))
    (hpad : ∀ t : Fin T, E ≤ t.val → uK (ix1 t) = 0) :
    Host.scatterAdd dK x idxK uK = Host.scatterAdd dR x idxR uR := by
  subst hK hR
  funext i
  obtain ⟨r, rfl⟩ : ∃ r : Fin N, i = ix1 r := ⟨i 0, eq_ix1 i⟩
  show x (ix1 r) + _ = x (ix1 r) + _
  congr 1
  refine sum_filter_pad (embElt hle) _ _ _ _ (fun j => ?_) (fun j => ?_) (fun j hj => ?_)
  · obtain ⟨q, rfl⟩ : ∃ q : Fin E, j = ix1 q := ⟨j 0, eq_ix1 j⟩
    show (LibCountScatter.dRow wfK).resultIdx? (ix1 (Fin.castLE hle q)) idxK = some (ix1 r)
      ↔ (LibCountScatter.dRow wfR).resultIdx? (ix1 q) idxR = some (ix1 r)
    rw [LibCountScatter.row_lands, LibCountScatter.row_lands, hidx]
  · obtain ⟨q, rfl⟩ : ∃ q : Fin E, j = ix1 q := ⟨j 0, eq_ix1 j⟩
    exact hu q
  · obtain ⟨t, rfl⟩ : ∃ t : Fin T, j = ix1 t := ⟨j 0, eq_ix1 j⟩
    refine hpad t (Nat.le_of_not_lt fun hlt => hj ⟨ix1 ⟨t.val, hlt⟩, ?_⟩)
    show ix1 (Fin.castLE hle ⟨t.val, hlt⟩) = ix1 t
    rfl

/-- Row updates [T, C] whose first E rows are the updates [E, C] and whose other rows are zero, scattered through an
    index column whose first E entries are the short one's, give the short scatter. -/
theorem scatterAdd_rows_pad {N E T C w : ℕ} {φ : FTy} (hle : E ≤ T)
    (dK : ScatterDims ⟨2, ![N, C]⟩ ⟨2, ![T, 1]⟩ ⟨2, ![T, C]⟩) (dR : ScatterDims ⟨2, ![N, C]⟩ ⟨2, ![E, 1]⟩ ⟨2, ![E, C]⟩)
    (wfK) (wfR) (hK : dK = ⟨[1], [0], [0], 1, wfK⟩) (hR : dR = ⟨[1], [0], [0], 1, wfR⟩)
    (x : FVec Ideal ⟨2, ![N, C]⟩ φ) (idxK : IVec ⟨2, ![T, 1]⟩ w) (idxR : IVec ⟨2, ![E, 1]⟩ w)
    (uK : FVec Ideal ⟨2, ![T, C]⟩ φ) (uR : FVec Ideal ⟨2, ![E, C]⟩ φ)
    (hidx : ∀ e : Fin E, idxK (ix2 (Fin.castLE hle e) (0 : Fin 1)) = idxR (ix2 e (0 : Fin 1)))
    (hu : ∀ (e : Fin E) (c : Fin C), uK (ix2 (Fin.castLE hle e) c) = uR (ix2 e c))
    (hpad : ∀ (t : Fin T) (c : Fin C), E ≤ t.val → uK (ix2 t c) = 0) :
    Host.scatterAdd dK x idxK uK = Host.scatterAdd dR x idxR uR := by
  subst hK hR
  funext i
  obtain ⟨r, k', rfl⟩ : ∃ (r : Fin N) (k' : Fin C), i = ix2 r k' := ⟨i 0, i 1, eq_ix2 i⟩
  show x (ix2 r k') + _ = x (ix2 r k') + _
  congr 1
  refine sum_filter_pad (embRow hle) _ _ _ _ (fun j => ?_) (fun j => ?_) (fun j hj => ?_)
  · obtain ⟨q, k, rfl⟩ : ∃ (q : Fin E) (k : Fin C), j = ix2 q k := ⟨j 0, j 1, eq_ix2 j⟩
    show (dRows wfK).resultIdx? (ix2 (Fin.castLE hle q) k) idxK = some (ix2 r k')
      ↔ (dRows wfR).resultIdx? (ix2 q k) idxR = some (ix2 r k')
    rw [rows_lands, rows_lands, hidx]
  · obtain ⟨q, k, rfl⟩ : ∃ (q : Fin E) (k : Fin C), j = ix2 q k := ⟨j 0, j 1, eq_ix2 j⟩
    exact hu q k
  · obtain ⟨t, k, rfl⟩ : ∃ (t : Fin T) (k : Fin C), j = ix2 t k := ⟨j 0, j 1, eq_ix2 j⟩
    refine hpad t k (Nat.le_of_not_lt fun hlt => hj ⟨ix2 ⟨t.val, hlt⟩ k, ?_⟩)
    show ix2 (Fin.castLE hle ⟨t.val, hlt⟩) k = ix2 t k
    rfl

end Cert.LibPaddedScatter

end
-- ==== Proof.LibPaddedEdges.lean ====
/-
  Padding an edge list with edges of weight zero does not change a message-passing layer.

  A layer over a graph with N nodes sends, along every edge, a message from the edge's source row to its target row.
  Edge e carries a source word and a target word; a word w is read as the row  row(w) = min w.toInt.toNat (N − 1)
  by a gather (signed, clamped into the operand) and as the row w.toInt, not clamped, by a scatter (an update whose
  row leaves the operand is dropped). The coefficient of edge e is  dinv[row(source e)] · weight(e) · dinv[row(target e)],
  its message in column c is  x[row(source e), c] · coefficient(e), and the messages are accumulated onto the rows
  their target words name.

  Let an edge list of T edges be an edge list of E ≤ T edges followed by T − E padding edges of weight 0. Then:
  the padded columns read on the first E edges are the unpadded ones, and past them the padding value; the start
  word a gather reads for an edge is one function of that edge's word, the same at every extent; the padded
  coefficients on the first E edges are the unpadded ones and on the padding edges are 0, since x · 0 = 0 = 0 · x for
  EVERY extended real (no finiteness is used); so the padding messages are 0 and the two accumulations agree, a row
  of zeros adding nothing wherever it lands. Every statement is over the variables N, E, T, C: no axis is enumerated.
-/
import Idealize.ShloMosaic.Lib.ValueIdx
import Idealize.ShloMosaic.Lib.Pipeline.Value
import Idealize.ShloMosaic.PureOps.Ideal.Laws
import proofs.«141327_j15882789060739_2_alg».proof.Proof.LibEdgeReads
import proofs.«141327_j15882789060739_2_alg».proof.Proof.LibPaddedScatter

noncomputable section

namespace Cert.LibPaddedEdges

open Idealize.ShloMosaic Idealize.ShloMosaic.ValueIdx

/-! ## Reading a padded column -/

/-- When a column of E entries and a column of P entries are laid end to end into T entries, E + P = T. -/
theorem concat_extent {E P T : ℕ} (h : Shape.Concatenates [(⟨1, ![E]⟩ : Shape), ⟨1, ![P]⟩] ⟨1, ![T]⟩ 0) : E + P = T := by
  have e := h.2.2
  simp only [List.map, List.sum_cons, List.sum_nil] at e
  rw [dif_pos trivial, dif_pos trivial] at e
  exact e

/-- A column of E entries followed by P more, read at one of its first E positions, is the first column there. -/
theorem concat_pad_left {α : Type} {E P T : ℕ} (hle : E ≤ T)
    (h : Shape.Concatenates [(⟨1, ![E]⟩ : Shape), ⟨1, ![P]⟩] ⟨1, ![T]⟩ 0)
    (a : (⟨1, ![E]⟩ : Shape).Idx → α) (b : (⟨1, ![P]⟩ : Shape).Idx → α) (e : Fin E) :
    concatenate ⟨1, ![T]⟩ 0 [⟨⟨1, ![E]⟩, a⟩, ⟨⟨1, ![P]⟩, b⟩] h (ix1 (Fin.castLE hle e)) = a (ix1 e) :=
  concatenate_pair_apply_left 0 a b h _ rfl (ix1 e) (fun b' => by match b' with | ⟨0, _⟩ => rfl)

/-- A scalar spread over T positions reads the scalar everywhere. -/
theorem scalar_apply {α : Type} {T : ℕ} (hs : (⟨0, ![]⟩ : Shape).BroadcastsInDim ⟨1, ![T]⟩ ![])
    (v : (⟨0, ![]⟩ : Shape).Idx → α) (t : Fin T) : broadcastInDim ⟨1, ![T]⟩ ![] hs v (ix1 t) = v ix0 :=
  broadcastInDim_apply ![] hs v _ ix0 (fun a => a.elim0)

/-- A column of E entries followed by P copies of one scalar, read at a position at or past E, is that scalar. -/
theorem concat_pad_right_scalar {α : Type} {E P T : ℕ}
    (h : Shape.Concatenates [(⟨1, ![E]⟩ : Shape), ⟨1, ![P]⟩] ⟨1, ![T]⟩ 0)
    (hs : (⟨0, ![]⟩ : Shape).BroadcastsInDim ⟨1, ![P]⟩ ![]) (a : (⟨1, ![E]⟩ : Shape).Idx → α)
    (v : (⟨0, ![]⟩ : Shape).Idx → α) (t : Fin T) (ht : E ≤ t.val) :
    concatenate ⟨1, ![T]⟩ 0 [⟨⟨1, ![E]⟩, a⟩, ⟨⟨1, ![P]⟩, broadcastInDim ⟨1, ![P]⟩ ![] hs v⟩] h (ix1 t) = v ix0 := by
  have hT := concat_extent h
  have hlt : t.val - E < P := by have := t.isLt; omega
  refine (concatenate_pair_apply_right 0 a _ h (ix1 t) rfl rfl (ix1 ⟨t.val - E, hlt⟩) (fun b' hb => ?_) ?_).trans ?_
  · exact absurd (Subsingleton.elim _ _) hb
  · show (t.val - E) + E = t.val
    omega
  · exact scalar_apply hs v _

/-! ## A column [T] as an index column [T, 1] -/

/-- A column spread to a [T, 1] array reads, at (t, 0), the column at t. -/
theorem col_apply {α : Type} {T : ℕ} (hc : (⟨1, ![T]⟩ : Shape).BroadcastsInDim ⟨2, ![T, 1]⟩ ![0])
    (s : (⟨1, ![T]⟩ : Shape).Idx → α) (t : Fin T) :
    broadcastInDim ⟨2, ![T, 1]⟩ ![0] hc s (ix2 t (0 : Fin 1)) = s (ix1 t) := by
  refine broadcastInDim_apply ![0] hc s _ (ix1 t) (fun a => ?_)
  match a with
  | ⟨0, _⟩ =>
    show t.val = if T = 1 then 0 else t.val
    split
    · have := t.isLt; omega
    · rfl

/-- A column reshaped to a [T, 1] array reads, at (t, 0), the column at t: the row-major positions agree. -/
theorem reshape_col_apply {α : Type} {T : ℕ} (h : (⟨1, ![T]⟩ : Shape).ShapeCasts ⟨2, ![T, 1]⟩)
    (v : (⟨1, ![T]⟩ : Shape).Idx → α) (t : Fin T) :
    shapeCast ⟨2, ![T, 1]⟩ v h (ix2 t (0 : Fin 1)) = v (ix1 t) :=
  shapeCast_apply v h _ (ix1 t) (by
    rw [Shape.rowMajor_val_two, Shape.rowMajor_val_one]
    show t.val = t.val * 1 + 0
    omega)

/-! ## The start column a gather reads for a column of words -/

/-- The start column of a word column: a word below z is raised by nn, any other word is kept; as a [T, 1] array. -/
def wrapCol (T : ℕ) (hs : (⟨0, ![]⟩ : Shape).BroadcastsInDim ⟨1, ![T]⟩ ![])
    (hc : (⟨1, ![T]⟩ : Shape).BroadcastsInDim ⟨2, ![T, 1]⟩ ![0]) (z nn : BitVec 32) (s : IVec ⟨1, ![T]⟩ 32) :
    IVec ⟨2, ![T, 1]⟩ 32 :=
  broadcastInDim ⟨2, ![T, 1]⟩ ![0] hc (select (cmpi .slt s (broadcastInDim ⟨1, ![T]⟩ ![] hs (constantI ⟨0, ![]⟩ 32 z)))
    (addi s (broadcastInDim ⟨1, ![T]⟩ ![] hs (constantI ⟨0, ![]⟩ 32 nn))) s)

/-- The start word of position t depends only on the word at t, by one function at every extent. -/
theorem wrapCol_apply {T : ℕ} (hs : (⟨0, ![]⟩ : Shape).BroadcastsInDim ⟨1, ![T]⟩ ![])
    (hc : (⟨1, ![T]⟩ : Shape).BroadcastsInDim ⟨2, ![T, 1]⟩ ![0]) (z nn : BitVec 32) (s : IVec ⟨1, ![T]⟩ 32) (t : Fin T) :
    wrapCol T hs hc z nn s (ix2 t (0 : Fin 1))
      = Scalar.select (IntOp.cmpi .slt (s (ix1 t)) z) (IntOp.addi (s (ix1 t)) nn) (s (ix1 t)) := by
  unfold wrapCol
  rw [col_apply]
  show Scalar.select (IntOp.cmpi .slt (s (ix1 t)) (broadcastInDim ⟨1, ![T]⟩ ![] hs (constantI ⟨0, ![]⟩ 32 z) (ix1 t)))
    (IntOp.addi (s (ix1 t)) (broadcastInDim ⟨1, ![T]⟩ ![] hs (constantI ⟨0, ![]⟩ 32 nn) (ix1 t))) (s (ix1 t)) = _
  rw [scalar_apply, scalar_apply]
  rfl

/-! ## One layer: the messages and their accumulation -/

/-- ONE LAYER. Padded messages  x[row(source t), c] · n(t)  with the coefficient column n equal to the unpadded
    coefficients on the first E edges and 0 on the padding edges, accumulated through a target column that agrees with
    the unpadded one on the first E edges, give the accumulation of the unpadded messages  n(e) · x[row(source e), c]. -/
theorem layer_pad {N E T C w : ℕ} {φ : FTy} (hle : E ≤ T) (hN : 0 < N)
    (wfgK : GatherDims.WF ⟨2, ![N, C]⟩ ⟨2, ![T, 1]⟩ ⟨2, ![T, C]⟩ [1] [0] [] [0] [] 1 ![1, C])
    (wfgR : GatherDims.WF ⟨2, ![N, C]⟩ ⟨2, ![E, 1]⟩ ⟨2, ![E, C]⟩ [1] [0] [] [0] [] 1 ![1, C])
    (gK : GatherDims ⟨2, ![N, C]⟩ ⟨2, ![T, 1]⟩ ⟨2, ![T, C]⟩) (hgK : gK = LibEdgeReads.rowGatherDims N T C wfgK)
    (gR : GatherDims ⟨2, ![N, C]⟩ ⟨2, ![E, 1]⟩ ⟨2, ![E, C]⟩) (hgR : gR = LibEdgeReads.rowGatherDims N E C wfgR)
    (sK : ScatterDims ⟨2, ![N, C]⟩ ⟨2, ![T, 1]⟩ ⟨2, ![T, C]⟩) (sR : ScatterDims ⟨2, ![N, C]⟩ ⟨2, ![E, 1]⟩ ⟨2, ![E, C]⟩)
    (wfsK) (wfsR) (hsK : sK = ⟨[1], [0], [0], 1, wfsK⟩) (hsR : sR = ⟨[1], [0], [0], 1, wfsR⟩)
    (x0 xl : FVec Ideal ⟨2, ![N, C]⟩ φ) (csK cdK : IVec ⟨2, ![T, 1]⟩ w) (csR cdR : IVec ⟨2, ![E, 1]⟩ w)
    (nK : FVec Ideal ⟨2, ![T, 1]⟩ φ) (nR : FVec Ideal ⟨1, ![E]⟩ φ)
    (mK : FVec Ideal ⟨2, ![T, C]⟩ φ) (mR : FVec Ideal ⟨2, ![E, C]⟩ φ)
    (hcs : ∀ e : Fin E, csK (ix2 (Fin.castLE hle e) (0 : Fin 1)) = csR (ix2 e (0 : Fin 1)))
    (hcd : ∀ e : Fin E, cdK (ix2 (Fin.castLE hle e) (0 : Fin 1)) = cdR (ix2 e (0 : Fin 1)))
    (hn : ∀ e : Fin E, nK (ix2 (Fin.castLE hle e) (0 : Fin 1)) = nR (ix1 e))
    (hn0 : ∀ t : Fin T, E ≤ t.val → nK (ix2 t (0 : Fin 1)) = 0)
    (hmK : ∀ (t : Fin T) (c : Fin C), mK (ix2 t c) = Host.gather gK xl csK (ix2 t c) * nK (ix2 t (0 : Fin 1)))
    (hmR : ∀ (e : Fin E) (c : Fin C), mR (ix2 e c) = nR (ix1 e) * Host.gather gR xl csR (ix2 e c)) :
    Host.scatterAdd (F := Ideal) sK x0 cdK mK = Host.scatterAdd (F := Ideal) sR x0 cdR mR := by
  refine LibPaddedScatter.scatterAdd_rows_pad hle sK sR wfsK wfsR hsK hsR x0 cdK cdR mK mR hcd
    (fun e c => ?_) (fun t c ht => ?_)
  · rw [hmK, hmR, LibEdgeReads.gather_rows_apply hN wfgK gK hgK, LibEdgeReads.gather_rows_apply hN wfgR gR hgR, hn]
    simp only [hcs]
    exact mul_comm _ _
  · rw [hmK, hn0 t ht, mul_zero]

/-! ## The edge coefficients -/

/-- The padded coefficient  dinv[row(source)] · weight · dinv[row(target)]  of one of the first E edges is the unpadded
    one, when the source, target and weight columns agree there. -/
theorem coeff_pad {N E T w : ℕ} {φ : FTy} (hle : E ≤ T) (hN : 0 < N)
    (wfK : GatherDims.WF ⟨1, ![N]⟩ ⟨2, ![T, 1]⟩ ⟨1, ![T]⟩ [] [0] [] [0] [] 1 ![1])
    (wfR : GatherDims.WF ⟨1, ![N]⟩ ⟨2, ![E, 1]⟩ ⟨1, ![E]⟩ [] [0] [] [0] [] 1 ![1])
    (gK : GatherDims ⟨1, ![N]⟩ ⟨2, ![T, 1]⟩ ⟨1, ![T]⟩) (hgK : gK = LibEdgeReads.eltGatherDims N T wfK)
    (gR : GatherDims ⟨1, ![N]⟩ ⟨2, ![E, 1]⟩ ⟨1, ![E]⟩) (hgR : gR = LibEdgeReads.eltGatherDims N E wfR)
    (dinv : FVec Ideal ⟨1, ![N]⟩ φ) (csK cdK : IVec ⟨2, ![T, 1]⟩ w) (csR cdR : IVec ⟨2, ![E, 1]⟩ w)
    (ewK : FVec Ideal ⟨1, ![T]⟩ φ) (ewR : FVec Ideal ⟨1, ![E]⟩ φ)
    (hcs : ∀ e : Fin E, csK (ix2 (Fin.castLE hle e) (0 : Fin 1)) = csR (ix2 e (0 : Fin 1)))
    (hcd : ∀ e : Fin E, cdK (ix2 (Fin.castLE hle e) (0 : Fin 1)) = cdR (ix2 e (0 : Fin 1)))
    (hew : ∀ e : Fin E, ewK (ix1 (Fin.castLE hle e)) = ewR (ix1 e)) (e : Fin E) :
    mulf (F := Ideal) (mulf (F := Ideal) (Host.gather gK dinv csK) ewK) (Host.gather gK dinv cdK) (ix1 (Fin.castLE hle e))
      = mulf (F := Ideal) (mulf (F := Ideal) (Host.gather gR dinv csR) ewR) (Host.gather gR dinv cdR) (ix1 e) := by
  rw [mulf_apply, mulf_apply, mulf_apply, mulf_apply,
    LibEdgeReads.gather_elts_apply hN wfK gK hgK, LibEdgeReads.gather_elts_apply hN wfK gK hgK,
    LibEdgeReads.gather_elts_apply hN wfR gR hgR, LibEdgeReads.gather_elts_apply hN wfR gR hgR, hew]
  simp only [hcs, hcd]

/-- The coefficient of an edge of weight 0 is 0, whatever the two gathered factors are: 0 absorbs every extended real. -/
theorem coeff_pad_zero {N T w : ℕ} {φ : FTy} (gK : GatherDims ⟨1, ![N]⟩ ⟨2, ![T, 1]⟩ ⟨1, ![T]⟩)
    (dinv : FVec Ideal ⟨1, ![N]⟩ φ) (csK cdK : IVec ⟨2, ![T, 1]⟩ w) (ewK : FVec Ideal ⟨1, ![T]⟩ φ)
    (t : Fin T) (h0 : ewK (ix1 t) = 0) :
    mulf (F := Ideal) (mulf (F := Ideal) (Host.gather gK dinv csK) ewK) (Host.gather gK dinv cdK) (ix1 t) = 0 := by
  rw [mulf_apply, mulf_apply, h0, mul_zero, zero_mul]

end Cert.LibPaddedEdges

end
-- ==== Proof.Bridge.lean ====
/-
  The kernel program's staged value and the reference's composed value are one function of the seven arguments.

  The kernel program works on the edge list padded from 1700000 to 1703936 edges; the padding edges have source
  word 0, target word 0 and weight 0. Stage by stage:
    * the first 1700000 entries of the padded word and weight columns are the unpadded columns (which both programs
      build by the same operations), so the scatter index columns and the gathers' start columns agree there: the
      start word of an edge is one function of its node word;
    * the degrees agree: an accumulating scatter is its operand plus the sum of the updates landing on an entry, and
      the padding updates are zeros; hence the inverse square roots agree (the same operations of equal degrees);
    * the coefficients agree on the unpadded edges and vanish on the padding edges (a factor 0);
    * the first products agree (both are the sum over k of x[n, k] · W1[k, c]);
    * layer 1's aggregations agree: on the unpadded edges the messages are the same products in the other order, the
      padding messages are zero;
    * the second products agree (relu of equal aggregations plus the bias, times W2), then layer 2's aggregations as
      layer 1's, then the results (the same bias row added).
  Only commutativity of the product, x · 0 = 0 and x + 0 = x on the extended reals are used: nothing needs finiteness.
-/
import proofs.«141327_j15882789060739_2_alg».proof.Proof.KernelStages
import proofs.«141327_j15882789060739_2_alg».proof.Proof.Gen.ReferenceIdeal.Read
import proofs.«141327_j15882789060739_2_alg».proof.Proof.LibEdgeReads
import proofs.«141327_j15882789060739_2_alg».proof.Proof.LibPaddedScatter
import proofs.«141327_j15882789060739_2_alg».proof.Proof.LibPaddedEdges
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.Bridge

open Idealize.ShloMosaic Idealize.ShloMosaic.ValueIdx
open Cert.KernelIdeal.Stage Cert.ReferenceIdeal.Read

variable (x0 : A0) (x1 : A1) (x2 : A2) (x3 : A3) (x4 : A4) (x5 : A5) (x6 : A6)

/-! ## The unpadded edge list is one term in both programs -/

/-- The first 1700000 source words, target words and weights are built by the same operations in both programs. -/
theorem src_eq : src5 x1 = val_main_v5 (F := Ideal) x1 := rfl
theorem dst_eq : dst6 x1 = val_main_v6 (F := Ideal) x1 := rfl
theorem ew_eq : ew8 x2 = val_main_v8 (F := Ideal) x2 := rfl

/-- The reference builds the edge list, the degrees and the coefficients a second time for its second layer, by the
    same operations of the same arguments. -/
theorem src_again : val_main_v55 (F := Ideal) x1 = val_main_v5 (F := Ideal) x1 := rfl
theorem dst_again : val_main_v56 (F := Ideal) x1 = val_main_v6 (F := Ideal) x1 := rfl
theorem coeff_again : val_main_v81 (F := Ideal) x1 x2 = val_main_v31 (F := Ideal) x1 x2 := rfl

/-! ## The first linear transform -/

/-- Both programs' first product is x · W1, entry by entry the same sum. -/
theorem xl1_eq : xl1 x0 x3 = val_main_v32 (F := Ideal) x0 x3 := by
  funext i
  rw [val_main_v32_apply]
  unfold xl1
  refine Finset.sum_congr rfl fun k _ => ?_
  have el : lidx_main_v32 i k = ix2 (i 0) k := funext fun a => Fin.ext (by
    match a with
    | ⟨0, _⟩ => rfl
    | ⟨1, _⟩ => rfl)
  have er : ridx_main_v32 i k = ix2 k (i 1) := funext fun a => Fin.ext (by
    match a with
    | ⟨0, _⟩ => rfl
    | ⟨1, _⟩ => rfl)
  rw [el, er]
  rfl

/-! ## The padded columns at an edge -/

/-- The unpadded edge count is below the padded one. -/
theorem hle : (1700000 : ℕ) ≤ 1703936 := by norm_num

/-- At an unpadded edge the padded source word, target word and weight are the unpadded ones. -/
theorem ksrc_left (e : Fin 1700000) : ksrc x1 (ix1 (Fin.castLE hle e)) = val_main_v5 (F := Ideal) x1 (ix1 e) :=
  (LibPaddedEdges.concat_pad_left hle _ _ _ e).trans (congrFun (src_eq x1) _)
theorem kdst_left (e : Fin 1700000) : kdst x1 (ix1 (Fin.castLE hle e)) = val_main_v6 (F := Ideal) x1 (ix1 e) :=
  (LibPaddedEdges.concat_pad_left hle _ _ _ e).trans (congrFun (dst_eq x1) _)
theorem kew_left (e : Fin 1700000) : kew x2 (ix1 (Fin.castLE hle e)) = val_main_v8 (F := Ideal) x2 (ix1 e) :=
  (LibPaddedEdges.concat_pad_left hle _ _ _ e).trans (congrFun (ew_eq x2) _)
/-- A padding edge has weight zero. -/
theorem kew_pad (t : Fin 1703936) (ht : 1700000 ≤ t.val) : kew x2 (ix1 t) = 0 :=
  (LibPaddedEdges.concat_pad_right_scalar _ _ _ _ t ht).trans Ideal.ofBits_zero_f32

/-- The scatter's index column: at an unpadded edge both programs read the same target word. -/
theorem col_dst (e : Fin 1700000) :
    col (kdst x1) (ix2 (Fin.castLE hle e) (0 : Fin 1)) = val_main_v10 (F := Ideal) x1 (ix2 e (0 : Fin 1)) :=
  (LibPaddedEdges.col_apply _ _ _).trans ((kdst_left x1 e).trans (LibPaddedEdges.col_apply _ _ _).symm)
theorem col_dst44 (e : Fin 1700000) :
    col (kdst x1) (ix2 (Fin.castLE hle e) (0 : Fin 1)) = val_main_v44 (F := Ideal) x1 (ix2 e (0 : Fin 1)) :=
  (LibPaddedEdges.col_apply _ _ _).trans ((kdst_left x1 e).trans (LibPaddedEdges.col_apply _ _ _).symm)
theorem col_dst94 (e : Fin 1700000) :
    col (kdst x1) (ix2 (Fin.castLE hle e) (0 : Fin 1)) = val_main_v94 (F := Ideal) x1 (ix2 e (0 : Fin 1)) :=
  (LibPaddedEdges.col_apply _ _ _).trans ((kdst_left x1 e).trans (LibPaddedEdges.col_apply _ _ _).symm)

/-- The gathers' start columns: the start word of an edge is one function of its node word in both programs. -/
theorem sel_src (e : Fin 1700000) :
    sel (ksrc x1) (ix2 (Fin.castLE hle e) (0 : Fin 1)) = val_main_v21 (F := Ideal) x1 (ix2 e (0 : Fin 1)) := by
  refine (LibPaddedEdges.wrapCol_apply _ _ 0#32 100000#32 (ksrc x1) _).trans ?_
  rw [ksrc_left]
  exact (LibPaddedEdges.wrapCol_apply _ _ 0#32 100000#32 (val_main_v5 (F := Ideal) x1) e).symm
theorem sel_dst (e : Fin 1700000) :
    sel (kdst x1) (ix2 (Fin.castLE hle e) (0 : Fin 1)) = val_main_v29 (F := Ideal) x1 (ix2 e (0 : Fin 1)) := by
  refine (LibPaddedEdges.wrapCol_apply _ _ 0#32 100000#32 (kdst x1) _).trans ?_
  rw [kdst_left]
  exact (LibPaddedEdges.wrapCol_apply _ _ 0#32 100000#32 (val_main_v6 (F := Ideal) x1) e).symm
theorem sel_src39 (e : Fin 1700000) :
    sel (ksrc x1) (ix2 (Fin.castLE hle e) (0 : Fin 1)) = val_main_v39 (F := Ideal) x1 (ix2 e (0 : Fin 1)) := by
  refine (LibPaddedEdges.wrapCol_apply _ _ 0#32 100000#32 (ksrc x1) _).trans ?_
  rw [ksrc_left]
  exact (LibPaddedEdges.wrapCol_apply _ _ 0#32 100000#32 (val_main_v5 (F := Ideal) x1) e).symm
theorem sel_src89 (e : Fin 1700000) :
    sel (ksrc x1) (ix2 (Fin.castLE hle e) (0 : Fin 1)) = val_main_v89 (F := Ideal) x1 (ix2 e (0 : Fin 1)) := by
  refine (LibPaddedEdges.wrapCol_apply _ _ 0#32 100000#32 (ksrc x1) _).trans ?_
  rw [ksrc_left]
  exact (LibPaddedEdges.wrapCol_apply _ _ 0#32 100000#32 (val_main_v5 (F := Ideal) x1) e).symm

/-! ## Degrees, inverse square roots, coefficients -/

/-- The padding edges add zero weight to node 0's degree: the degrees agree. -/
theorem deg_eq : kdeg x1 x2 = val_main_v11 (F := Ideal) x1 x2 :=
  LibPaddedScatter.scatterAdd_elts_pad hle _ _ _ _ rfl rfl _ _ _ _ _ (col_dst x1) (kew_left x2) (kew_pad x2)

/-- Hence the inverse square roots agree. -/
theorem dinv_eq : dinvOf (kdeg x1 x2) = val_main_v15 (F := Ideal) x1 x2 := by
  rw [deg_eq]; rfl

/-- At an unpadded edge the padded coefficient is the unpadded one. -/
theorem knorm_left (e : Fin 1700000) : knorm x1 x2 (ix1 (Fin.castLE hle e)) = val_main_v31 (F := Ideal) x1 x2 (ix1 e) := by
  unfold knorm
  rw [dinv_eq]
  exact LibPaddedEdges.coeff_pad hle (by norm_num) _ _ _ rfl _ rfl _ _ _ _ _ _ _ (sel_src x1) (sel_dst x1) (kew_left x2) e
/-- A padding edge's coefficient is zero: its weight is. -/
theorem knorm_pad (t : Fin 1703936) (ht : 1700000 ≤ t.val) : knorm x1 x2 (ix1 t) = 0 :=
  LibPaddedEdges.coeff_pad_zero _ _ _ _ _ t (kew_pad x2 t ht)
theorem knorm2d_left (e : Fin 1700000) :
    knorm2d x1 x2 (ix2 (Fin.castLE hle e) (0 : Fin 1)) = val_main_v31 (F := Ideal) x1 x2 (ix1 e) :=
  (LibPaddedEdges.reshape_col_apply _ _ _).trans (knorm_left x1 x2 e)
theorem knorm2d_pad (t : Fin 1703936) (ht : 1700000 ≤ t.val) : knorm2d x1 x2 (ix2 t (0 : Fin 1)) = 0 :=
  (LibPaddedEdges.reshape_col_apply _ _ _).trans (knorm_pad x1 x2 t ht)

/-! ## Layer 1 -/

/-- The reference's message at (e, c): the coefficient times the gathered entry. -/
theorem msg1_ref (e : Fin 1700000) (c : Fin 64) :
    val_main_v42 (F := Ideal) x0 x1 x2 x3 (ix2 e c)
      = val_main_v31 (F := Ideal) x1 x2 (ix1 e)
        * Host.gather Cert.ReferenceIdeal.gather_S100000x64_S1700000x1_S1700000x64_1_0_n_n_0_1_164 (xl1 x0 x3) (val_main_v39 (F := Ideal) x1) (ix2 e c) := by
  have ei : idx_main_v33 (idx_main_v41 (ix2 e c)) = ix1 e := funext fun a => Fin.ext (by
    match a with
    | ⟨0, _⟩ => rfl)
  rw [val_main_v42_apply, val_main_v41_apply, val_main_v33_apply, ei, xl1_eq]
  rfl

/-- Layer 1's aggregations agree: the padding messages are zero. -/
theorem out1_eq : out1 x0 x1 x2 x3 = val_main_v45 (F := Ideal) x0 x1 x2 x3 :=
  LibPaddedEdges.layer_pad hle (by norm_num) _ _ _ rfl _ rfl _ _ _ _ rfl rfl _ (xl1 x0 x3) _ _ _ _ (knorm2d x1 x2) (val_main_v31 (F := Ideal) x1 x2)
    (msg1 x0 x1 x2 x3) (val_main_v42 (F := Ideal) x0 x1 x2 x3)
    (sel_src39 x1) (col_dst44 x1) (knorm2d_left x1 x2) (knorm2d_pad x1 x2) (fun t c => rfl) (msg1_ref x0 x1 x2 x3)

/-! ## The second linear transform -/

/-- The hidden bias reshaped to a row reads, at (0, k), the bias at k. -/
theorem b1row_apply (k : Fin 64) : b1row x4 (ix2 (0 : Fin 1) k) = x4 (ix1 k) := shapeCast_a_1a_apply x4 _ 0 k

/-- The reference's hidden activation at (n, k): relu of layer 1's aggregation plus the bias. -/
theorem hidden_ref (n : Fin 100000) (k : Fin 64) :
    val_main_v49 (F := Ideal) x0 x1 x2 x3 x4 (ix2 n k)
      = max (out1 x0 x1 x2 x3 (ix2 n k) + b1row x4 (ix2 (0 : Fin 1) k)) (Ideal.ofBits .f32 0x00000000#32) := by
  have ei : idx_main_v46 (idx_main_v47 (ix2 n k)) = ix1 k := funext fun a => Fin.ext (by
    match a with
    | ⟨0, _⟩ => rfl)
  rw [val_main_v49_apply, val_main_v48_apply, val_main_v47_apply, val_main_v46_apply, val_main_call1_v0_apply,
    val_main_call1_cst_apply, ei, ← out1_eq, b1row_apply]
  rfl

/-- Both programs' second product is relu(out1 + b1) · W2. -/
theorem xl2_eq : xl2 x0 x1 x2 x3 x4 x5 = val_main_v82 (F := Ideal) x0 x1 x2 x3 x4 x5 := by
  funext i
  rw [val_main_v82_apply]
  unfold xl2
  refine Finset.sum_congr rfl fun k _ => ?_
  have el : lidx_main_v82 i k = ix2 (i 0) k := funext fun a => Fin.ext (by
    match a with
    | ⟨0, _⟩ => rfl
    | ⟨1, _⟩ => rfl)
  have er : ridx_main_v82 i k = ix2 k (i 1) := funext fun a => Fin.ext (by
    match a with
    | ⟨0, _⟩ => rfl
    | ⟨1, _⟩ => rfl)
  rw [el, er]
  exact congrArg (fun z => z * x5 (ix2 k (i 1))) (hidden_ref x0 x1 x2 x3 x4 (i 0) k).symm

/-! ## Layer 2 and the result -/

/-- The reference's second-layer message at (e, c). -/
theorem msg2_ref (e : Fin 1700000) (c : Fin 40) :
    val_main_v92 (F := Ideal) x0 x1 x2 x3 x4 x5 (ix2 e c)
      = val_main_v31 (F := Ideal) x1 x2 (ix1 e)
        * Host.gather Cert.ReferenceIdeal.gather_S100000x40_S1700000x1_S1700000x40_1_0_n_n_0_1_140 (xl2 x0 x1 x2 x3 x4 x5)
            (val_main_v89 (F := Ideal) x1) (ix2 e c) := by
  have ei : idx_main_v83 (idx_main_v91 (ix2 e c)) = ix1 e := funext fun a => Fin.ext (by
    match a with
    | ⟨0, _⟩ => rfl)
  rw [val_main_v92_apply, val_main_v91_apply, val_main_v83_apply, ei, coeff_again, xl2_eq]
  rfl

/-- Layer 2's aggregations agree. -/
theorem out2_eq : out2 x0 x1 x2 x3 x4 x5 = val_main_v95 (F := Ideal) x0 x1 x2 x3 x4 x5 :=
  LibPaddedEdges.layer_pad hle (by norm_num) _ _ _ rfl _ rfl _ _ _ _ rfl rfl _ (xl2 x0 x1 x2 x3 x4 x5) _ _ _ _ (knorm2d x1 x2) (val_main_v31 (F := Ideal) x1 x2)
    (msg2 x0 x1 x2 x3 x4 x5) (val_main_v92 (F := Ideal) x0 x1 x2 x3 x4 x5)
    (sel_src89 x1) (col_dst94 x1) (knorm2d_left x1 x2) (knorm2d_pad x1 x2) (fun t c => rfl) (msg2_ref x0 x1 x2 x3 x4 x5)

/-- THE TWO PROGRAMS' RESULTS are one function of the arguments. -/
theorem result_eq : result x0 x1 x2 x3 x4 x5 x6 = val_main_v98 (F := Ideal) x0 x1 x2 x3 x4 x5 x6 := by
  unfold result val_main_v98
  rw [out2_eq]
  rfl

end Cert.Bridge

end
-- ==== Proof.lean ====
/-
  A two-layer graph convolution: a kernel program against its plain reference, over the extended reals.

  Both programs compute, for a graph on 100000 nodes with 1600000 weighted edges and one self loop of weight 1 per
  node,  out = A · relu(A · (x · W1) + b1) · W2 + b2  where  A[n, s] = sum over the edges e from s to n of
  dinv[s] · ew[e] · dinv[n]  and  dinv = deg^(-1/2) (0 where the weighted in-degree deg is not positive).

  The kernel program pads the edge list with 3936 edges of weight 0 (source and target node 0), computes the two matrix
  products and the two edge-wise scalings in four launched kernels, each tiling its arrays in row blocks, and gathers
  and scatters on the host. The reference works on the unpadded edge list with host operations only, and rebuilds the
  degrees and coefficients for its second layer. They agree because
    * a launched kernel's blocks tile its arrays, and each output entry depends only on the rows and columns its
      block holds, so each launch leaves a whole-array function of its inputs (a matrix product into zero is the same
      sum as the host's product; a change of float format is the identity on the extended reals);
    * a padding edge has coefficient  dinv[0] · 0 · dinv[0] = 0  and so message  x · 0 = 0  in every column, for EVERY
      extended real x, and an accumulating scatter is the operand plus the SUM of the updates that land on an entry:
      the padding edges add zeros to node 0's degree and to row 0 of each aggregation;
    * products commute (the kernel scales the gathered row by the coefficient, the reference the other way round).
  No step needs the inputs to be finite, so the precondition is never opened.

  The kernel's frames and the reference's run are generated; the kernel's run with its result named, the read-back of
  that result through the run's segments, the launches' whole-array functions, the padding lemmas and the comparison
  with the reference are the hand-written modules imported below.
-/
import proofs.«141327_j15882789060739_2_alg».proof.Defs
import proofs.«141327_j15882789060739_2_alg».proof.Proof.Gen.Kernel
import proofs.«141327_j15882789060739_2_alg».proof.Proof.Gen.Kernel.Skeleton
import proofs.«141327_j15882789060739_2_alg».proof.Proof.Gen.Kernel.Launch
import proofs.«141327_j15882789060739_2_alg».proof.Proof.Gen.Kernel.Points
import proofs.«141327_j15882789060739_2_alg».proof.Proof.Gen.Kernel.Frame
import proofs.«141327_j15882789060739_2_alg».proof.Proof.Gen.KernelIdeal
import proofs.«141327_j15882789060739_2_alg».proof.Proof.Gen.KernelIdeal.Skeleton
import proofs.«141327_j15882789060739_2_alg».proof.Proof.Gen.KernelIdeal.Launch
import proofs.«141327_j15882789060739_2_alg».proof.Proof.Gen.KernelIdeal.Points
import proofs.«141327_j15882789060739_2_alg».proof.Proof.Gen.KernelIdeal.Frame
import proofs.«141327_j15882789060739_2_alg».proof.Proof.Gen.ReferenceIdeal
import proofs.«141327_j15882789060739_2_alg».proof.Proof.Gen.ReferenceIdeal.Run
import proofs.«141327_j15882789060739_2_alg».proof.Proof.Gen.ReferenceIdeal.Read
import proofs.«141327_j15882789060739_2_alg».proof.Proof.Gen.Pre_finite_inputs
import proofs.«141327_j15882789060739_2_alg».proof.Proof.KernelRun
import proofs.«141327_j15882789060739_2_alg».proof.Proof.KernelFold
import proofs.«141327_j15882789060739_2_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments the two idealized programs end with equal results: the kernel program's
    result buffer holds the staged value of its arguments, the reference's holds its composed term of its arguments,
    and the two are one function. -/
theorem algebraic : Cert.algebraic_KernelIdeal_ReferenceIdeal := by
  intro m ρ m' ρ' _ hagree
  refine ⟨fun c => Cert.KernelIdeal.Stage.result (Cert.KernelIdeal.Fold.a0 m c) (Cert.KernelIdeal.Fold.a1 m c) (Cert.KernelIdeal.Fold.a2 m c)
      (Cert.KernelIdeal.Fold.a3 m c) (Cert.KernelIdeal.Fold.a4 m c) (Cert.KernelIdeal.Fold.a5 m c) (Cert.KernelIdeal.Fold.a6 m c), ?_, ?_⟩
  · exact (θ_run Cert.KernelIdeal.defs _ _).mono
      (fun r h c => ⟨(h c).1.trans (Cert.KernelIdeal.Fold.result_eq m ρ c), (h c).2⟩)
      (Cert.KernelIdeal.RunValue.run_result (F := Ideal) m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v98_eq, (hagree c).1, (hagree c).2.1, (hagree c).2.2.1, (hagree c).2.2.2.1,
      (hagree c).2.2.2.2.1, (hagree c).2.2.2.2.2.1, (hagree c).2.2.2.2.2.2]
    exact (Cert.Bridge.result_eq _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
